-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x800000 : Shape := ⟨2, ![2, 800000]⟩
abbrev S16x96 : Shape := ⟨2, ![16, 96]⟩
abbrev S96 : Shape := ⟨1, ![96]⟩
abbrev S3x96x96 : Shape := ⟨3, ![3, 96, 96]⟩
abbrev S3x96 : Shape := ⟨2, ![3, 96]⟩
abbrev S96x4 : Shape := ⟨2, ![96, 4]⟩
abbrev S4 : Shape := ⟨1, ![4]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S16x96 : S_.BroadcastsInDim S16x96 (![] : Fin 0 → Fin S16x96.rank)
  reducesTo_S16x96_S_d0_1 : S16x96.ReducesTo [0, 1] S_
  bcast_S_S96 : S_.BroadcastsInDim S96 (![] : Fin 0 → Fin S96.rank)
  reducesTo_S96_S_d0 : S96.ReducesTo [0] S_
  bcast_S_S3x96x96 : S_.BroadcastsInDim S3x96x96 (![] : Fin 0 → Fin S3x96x96.rank)
  reducesTo_S3x96x96_S_d0_1_2 : S3x96x96.ReducesTo [0, 1, 2] S_
  bcast_S_S3x96 : S_.BroadcastsInDim S3x96 (![] : Fin 0 → Fin S3x96.rank)
  reducesTo_S3x96_S_d0_1 : S3x96.ReducesTo [0, 1] S_
  bcast_S_S96x4 : S_.BroadcastsInDim S96x4 (![] : Fin 0 → Fin S96x4.rank)
  reducesTo_S96x4_S_d0_1 : S96x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S3x96 .f32) (main_arg6 : FVec F S96x4 .f32) (main_arg7 : FVec F S4 .f32) (main_v13 : IVec S_ 1) (main_v16 : IVec S3x96x96 1) : IVec S_ 1 :=
  let main_c_5 : IVec S_ 1 := constantI S_ 1 1#1
  let main_v17 : IVec S_ 1 := (fun x v => Host.reduce IntOp.andi x v reducesTo_S3x96x96_S_d0_1_2 h_S_) main_v16 main_c_5
  let main_v18 : IVec S_ 1 := andi main_v13 main_v17
  let main_v19 : FVec F S3x96 .f32 := Host.absf main_arg5
  let main_cst_6 : FVec F S_ .f32 := constant S_ .f32 0x7F800000#32
  let main_v20 : FVec F S3x96 .f32 := broadcastInDim S3x96 ![] bcast_S_S3x96 main_cst_6
  let main_v21 : IVec S3x96 1 := cmpf .olt main_v19 main_v20
  let main_c_7 : IVec S_ 1 := constantI S_ 1 1#1
  let main_v22 : IVec S_ 1 := (fun x v => Host.reduce IntOp.andi x v reducesTo_S3x96_S_d0_1 h_S_) main_v21 main_c_7
  let main_v23 : IVec S_ 1 := andi main_v18 main_v22
  let main_v24 : FVec F S96x4 .f32 := Host.absf main_arg6
  let main_cst_8 : FVec F S_ .f32 := constant S_ .f32 0x7F800000#32
  let main_v25 : FVec F S96x4 .f32 := broadcastInDim S96x4 ![] bcast_S_S96x4 main_cst_8
  let main_v26 : IVec S96x4 1 := cmpf .olt main_v24 main_v25
  let main_c_9 : IVec S_ 1 := constantI S_ 1 1#1
  let main_v27 : IVec S_ 1 := (fun x v => Host.reduce IntOp.andi x v reducesTo_S96x4_S_d0_1 h_S_) main_v26 main_c_9
  let main_v28 : IVec S_ 1 := andi main_v23 main_v27
  let main_v29 : FVec F S4 .f32 := Host.absf main_arg7
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S50000x16 .f32) (main_arg1 : IVec S2x800000 32) (main_arg2 : FVec F S16x96 .f32) (main_arg3 : FVec F S96 .f32) (main_arg4 : FVec F S3x96x96 .f32) (main_arg5 : FVec F S3x96 .f32) (main_arg6 : FVec F S96x4 .f32) (main_arg7 : FVec F S4 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S16x96 .f32 := Host.absf main_arg2
  let main_cst_0 : FVec F S_ .f32 := constant S_ .f32 0x7F800000#32
  let main_v5 : FVec F S16x96 .f32 := broadcastInDim S16x96 ![] bcast_S_S16x96 main_cst_0
  let main_v6 : IVec S16x96 1 := cmpf .olt main_v4 main_v5
  let main_c_1 : IVec S_ 1 := constantI S_ 1 1#1
  let main_v7 : IVec S_ 1 := (fun x v => Host.reduce IntOp.andi x v reducesTo_S16x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S3x96x96 .f32 := Host.absf main_arg4
  let main_cst_4 : FVec F S_ .f32 := constant S_ .f32 0x7F800000#32
  let main_v15 : FVec F S3x96x96 .f32 := broadcastInDim S3x96x96 ![] bcast_S_S3x96x96 main_cst_4
  let main_v16 : IVec S3x96x96 1 := cmpf .olt main_v14 main_v15
  fn_part1 (F := F) main_arg5 main_arg6 main_arg7 main_v13 main_v16
-- ==== Kernel.lean ====
abbrev S50000x16 : Shape := ⟨2, ![50000, 16]⟩
abbrev S2x800000 : Shape := ⟨2, ![2, 800000]⟩
abbrev S16x96 : Shape := ⟨2, ![16, 96]⟩
abbrev S96 : Shape := ⟨1, ![96]⟩
abbrev S3x96x96 : Shape := ⟨3, ![3, 96, 96]⟩
abbrev S3x96 : Shape := ⟨2, ![3, 96]⟩
abbrev S96x4 : Shape := ⟨2, ![96, 4]⟩
abbrev S4 : Shape := ⟨1, ![4]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x96 : Shape := ⟨2, ![1, 96]⟩
abbrev S50000x96 : Shape := ⟨2, ![50000, 96]⟩
abbrev S5000x16 : Shape := ⟨2, ![5000, 16]⟩
abbrev S5000x96 : Shape := ⟨2, ![5000, 96]⟩
abbrev S1x96x96 : Shape := ⟨3, ![1, 96, 96]⟩
abbrev S96x96 : Shape := ⟨2, ![96, 96]⟩
abbrev S850000x96 : Shape := ⟨2, ![850000, 96]⟩
abbrev S1x4 : Shape := ⟨2, ![1, 4]⟩
abbrev S50000x4 : Shape := ⟨2, ![50000, 4]⟩
abbrev S5000x4 : Shape := ⟨2, ![5000, 4]⟩

abbrev nBuf : Space → Nat
  | .hbm => 118
  | .vmem => 30
  | .smem => 0
  | _ => 0

abbrev bufTy : (tb : Table) → Fin (tcTables nBuf tb) → BufTy
  | .hbm, ⟨0, _⟩ => ⟨S50000x16, .f32⟩
  | .hbm, ⟨1, _⟩ => ⟨S2x800000, .i32⟩
  | .hbm, ⟨2, _⟩ => ⟨S16x96, .f32⟩
  | .hbm, ⟨3, _⟩ => ⟨S96, .f32⟩
  | .hbm, ⟨4, _⟩ => ⟨S3x96x96, .f32⟩
  | .hbm, ⟨5, _⟩ => ⟨S3x96, .f32⟩
  | .hbm, ⟨6, _⟩ => ⟨S96x4, .f32⟩
  | .hbm, ⟨7, _⟩ => ⟨S4, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S1x96, .f32⟩
  | .hbm, ⟨49, _⟩ => ⟨S50000x96, .f32⟩
  | .hbm, ⟨50, _⟩ => ⟨S1x96x96, .f32⟩
  | .hbm, ⟨51, _⟩ => ⟨S96x96, .f32⟩
  | .hbm, ⟨52, _⟩ => ⟨S50000x96, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x96, .f32⟩
  | .hbm, ⟨62, _⟩ => ⟨S850000x1, .f32⟩
  | .hbm, ⟨63, _⟩ => ⟨S850000x96, .f32⟩
  | .hbm, ⟨64, _⟩ => ⟨S850000x96, .f32⟩
  | .hbm, ⟨65, _⟩ => ⟨S_, .f32⟩
  | .hbm, ⟨66, _⟩ => ⟨S50000x96, .f32⟩
  | .hbm, ⟨67, _⟩ => ⟨S850000x1, .i32⟩
  | .hbm, ⟨68, _⟩ => ⟨S50000x96, .f32⟩
  | .hbm, ⟨69, _⟩ => ⟨S1x96x96, .f32⟩
  | .hbm, ⟨70, _⟩ => ⟨S96x96, .f32⟩
  | .hbm, ⟨71, _⟩ => ⟨S1x96, .f32⟩
  | .hbm, ⟨72, _⟩ => ⟨S96, .f32⟩
  | .hbm, ⟨73, _⟩ => ⟨S1x96, .f32⟩
  | .hbm, ⟨74, _⟩ => ⟨S50000x96, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x96, .f32⟩
  | .hbm, ⟨84, _⟩ => ⟨S850000x1, .f32⟩
  | .hbm, ⟨85, _⟩ => ⟨S850000x96, .f32⟩
  | .hbm, ⟨86, _⟩ => ⟨S850000x96, .f32⟩
  | .hbm, ⟨87, _⟩ => ⟨S_, .f32⟩
  | .hbm, ⟨88, _⟩ => ⟨S50000x96, .f32⟩
  | .hbm, ⟨89, _⟩ => ⟨S850000x1, .i32⟩
  | .hbm, ⟨90, _⟩ => ⟨S50000x96, .f32⟩
  | .hbm, ⟨91, _⟩ => ⟨S1x96x96, .f32⟩
  | .hbm, ⟨92, _⟩ => ⟨S96x96, .f32⟩
  | .hbm, ⟨93, _⟩ => ⟨S1x96, .f32⟩
  | .hbm, ⟨94, _⟩ => ⟨S96, .f32⟩
  | .hbm, ⟨95, _⟩ => ⟨S1x96, .f32⟩
  | .hbm, ⟨96, _⟩ => ⟨S50000x96, .f32⟩
  | .hbm, ⟨97, _⟩ => ⟨S_, .i32⟩
  | .hbm, ⟨98, _⟩ => ⟨S850000, .i32⟩
  | .hbm, ⟨99, _⟩ => ⟨S850000, .i1⟩
  | .hbm, ⟨100, _⟩ => ⟨S_, .i32⟩
  | .hbm, ⟨101, _⟩ => ⟨S850000, .i32⟩
  | .hbm, ⟨102, _⟩ => ⟨S850000, .i32⟩
  | .hbm, ⟨103, _⟩ => ⟨S850000, .i32⟩
  | .hbm, ⟨104, _⟩ => ⟨S850000x1, .i32⟩
  | .hbm, ⟨105, _⟩ => ⟨S850000x96, .f32⟩
  | .hbm, ⟨106, _⟩ => ⟨S850000x1, .f32⟩
  | .hbm, ⟨107, _⟩ => ⟨S850000x96, .f32⟩
  | .hbm, ⟨108, _⟩ => ⟨S850000x96, .f32⟩
  | .hbm, ⟨109, _⟩ => ⟨S_, .f32⟩
  | .hbm, ⟨110, _⟩ => ⟨S50000x96, .f32⟩
  | .hbm, ⟨111, _⟩ => ⟨S850000x1, .i32⟩
  | .hbm, ⟨112, _⟩ => ⟨S50000x96, .f32⟩
  | .hbm, ⟨113, _⟩ => ⟨S1x96, .f32⟩
  | .hbm, ⟨114, _⟩ => ⟨S96, .f32⟩
  | .hbm, ⟨115, _⟩ => ⟨S1x96, .f32⟩
  | .hbm, ⟨116, _⟩ => ⟨S1x4, .f32⟩
  | .hbm, ⟨117, _⟩ => ⟨S50000x4, .f32⟩
  | .local _ .vmem, ⟨0, _⟩ => ⟨S5000x16, .f32⟩
  | .local _ .vmem, ⟨1, _⟩ => ⟨S5000x16, .f32⟩
  | .local _ .vmem, ⟨2, _⟩ => ⟨S16x96, .f32⟩
  | .local _ .vmem, ⟨3, _⟩ => ⟨S1x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S96x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S1x96, .f32⟩
  | .local _ .vmem, ⟨14, _⟩ => ⟨S96x96, .f32⟩
  | .local _ .vmem, ⟨15, _⟩ => ⟨S5000x96, .f32⟩
  | .local _ .vmem, ⟨16, _⟩ => ⟨S5000x96, .f32⟩
  | .local _ .vmem, ⟨17, _⟩ => ⟨S5000x96, .f32⟩
  | .local _ .vmem, ⟨18, _⟩ => ⟨S5000x96, .f32⟩
  | .local _ .vmem, ⟨19, _⟩ => ⟨S1x96, .f32⟩
  | .local _ .vmem, ⟨20, _⟩ => ⟨S96x96, .f32⟩
  | .local _ .vmem, ⟨21, _⟩ => ⟨S5000x96, .f32⟩
  | .local _ .vmem, ⟨22, _⟩ => ⟨S5000x96, .f32⟩
  | .local _ .vmem, ⟨23, _⟩ => ⟨S5000x96, .f32⟩
  | .local _ .vmem, ⟨24, _⟩ => ⟨S5000x96, .f32⟩
  | .local _ .vmem, ⟨25, _⟩ => ⟨S1x96, .f32⟩
  | .local _ .vmem, ⟨26, _⟩ => ⟨S96x4, .f32⟩
  | .local _ .vmem, ⟨27, _⟩ => ⟨S1x4, .f32⟩
  | .local _ .vmem, ⟨28, _⟩ => ⟨S5000x4, .f32⟩
  | .local _ .vmem, ⟨29, _⟩ => ⟨S5000x4, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_9 : Ref sig .tc := ⟨.hbm, 75, rfl⟩
abbrev main_v54 : Ref sig .tc := ⟨.hbm, 76, rfl⟩
abbrev main_v55 : Ref sig .tc := ⟨.hbm, 77, rfl⟩
abbrev main_c_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_12 : Ref sig .tc := ⟨.hbm, 97, rfl⟩
abbrev main_v73 : Ref sig .tc := ⟨.hbm, 98, rfl⟩
abbrev main_v74 : Ref sig .tc := ⟨.hbm, 99, rfl⟩
abbrev main_c_13 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_14 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg4_0 : Ref sig .tc := ⟨.vmem, 28, rfl⟩
abbrev cc4_stg4_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem4_0 : DmaSem sig := 28
abbrev cc4_sem4_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S96x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x96 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x96 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S96x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x96 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x96 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S96x4 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x4 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x4 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S96_S1x96 : S96.ShapeCasts S1x96
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x96_S16x96_0_0 : ∀ a, (![0, 0] : Fin 2 → Nat) a + S16x96.size a ≤ S16x96.size a
  h_S16x96 : 0 < S16x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S5000x96_S5000x96_0_0 : ∀ a, (![0, 0] : Fin 2 → Nat) a + S5000x96.size a ≤ S5000x96.size a
  h_S5000x96 : 0 < S5000x96.numel
  slices_S3x96x96_S1x96x96_0_0_0 : S3x96x96.Slices ![0, 0, 0] S1x96x96
  shapeCasts_S1x96x96_S96x96 : S1x96x96.ShapeCasts S96x96
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  slices_S3x96x96_S1x96x96_1_0_0 : S3x96x96.Slices ![1, 0, 0] S1x96x96
  slices_S3x96_S1x96_0_0 : S3x96.Slices ![0, 0] S1x96
  shapeCasts_S1x96_S96 : S1x96.ShapeCasts S96
  slices_S3x96x96_S1x96x96_2_0_0 : S3x96x96.Slices ![2, 0, 0] S1x96x96
  slices_S3x96_S1x96_1_0 : S3x96.Slices ![1, 0] S1x96
  slices_S3x96_S1x96_2_0 : S3x96.Slices ![2, 0] S1x96
  shapeCasts_S4_S1x4 : S4.ShapeCasts S1x4
  inb_S96x4_S96x4_0_0 : ∀ a, (![0, 0] : Fin 2 → Nat) a + S96x4.size a ≤ S96x4.size a
  h_S96x4 : 0 < S96x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x16_S16x96_S5000x96_1_0_0_1_n_n_wf : DotDims.WF S5000x16 S16x96 S5000x96 [1] [0] [0] [1] [] []
  dot_S5000x96_S96x96_S5000x96_1_0_0_1_n_n_wf : DotDims.WF S5000x96 S96x96 S5000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S5000x96_S96x4_S5000x4_1_0_0_1_n_n_wf : DotDims.WF S5000x96 S96x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S50000x16.size a
  hwx0_0 : ∀ i : grid0.Coords, EltTy.bits .f32 = 32 ∨ (Rect.block (s := S50000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x96.size a ≤ S16x96.size a
  hwx0_1 : ∀ i : grid0.Coords, EltTy.bits .f32 = 32 ∨ (Rect.block (s := S16x96) S16x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .f32 = 32 ∨ (Rect.block (s := S50000x96) S5000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x96.size a ≤ S96x96.size a
  hwx1_1 : ∀ i : grid1.Coords, EltTy.bits .f32 = 32 ∨ (Rect.block (s := S96x96) S96x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x96.size a ≤ S50000x96.size a
  hwx1_2 : ∀ i : grid1.Coords, EltTy.bits .f32 = 32 ∨ (Rect.block (s := S50000x96) S5000x96.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x96.size a ≤ S1x96.size a
  hwx2_1 : ∀ i : grid2.Coords, EltTy.bits .f32 = 32 ∨ (Rect.block (s := S1x96) S1x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96x96.size a ≤ S96x96.size a
  hwx2_2 : ∀ i : grid2.Coords, EltTy.bits .f32 = 32 ∨ (Rect.block (s := S96x96) S96x96.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x96.size a ≤ S50000x96.size a
  hwx2_3 : ∀ i : grid2.Coords, EltTy.bits .f32 = 32 ∨ (Rect.block (s := S50000x96) S5000x96.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x96.size a ≤ S1x96.size a
  hwx3_1 : ∀ i : grid3.Coords, EltTy.bits .f32 = 32 ∨ (Rect.block (s := S1x96) S1x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S96x96.size a ≤ S96x96.size a
  hwx3_2 : ∀ i : grid3.Coords, EltTy.bits .f32 = 32 ∨ (Rect.block (s := S96x96) S96x96.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x96.size a ≤ S50000x96.size a
  hwx3_3 : ∀ i : grid3.Coords, EltTy.bits .f32 = 32 ∨ (Rect.block (s := S50000x96) S5000x96.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S50000x96.size a
  hwx4_0 : ∀ i : grid4.Coords, EltTy.bits .f32 = 32 ∨ (Rect.block (s := S50000x96) S5000x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x96.size a ≤ S1x96.size a
  hwx4_1 : ∀ i : grid4.Coords, EltTy.bits .f32 = 32 ∨ (Rect.block (s := S1x96) S1x96.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S96x4.size a ≤ S96x4.size a
  hwx4_2 : ∀ i : grid4.Coords, EltTy.bits .f32 = 32 ∨ (Rect.block (s := S96x4) S96x4.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x4.size a ≤ S1x4.size a
  hwx4_3 : ∀ i : grid4.Coords, EltTy.bits .f32 = 32 ∨ (Rect.block (s := S1x4) S1x4.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x4.size a ≤ S50000x4.size a
  hwx4_4 : ∀ i : grid4.Coords, EltTy.bits .f32 = 32 ∨ (Rect.block (s := S50000x4) S5000x4.size (cc4_transform_4 i) (hinb4_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x16_S16x96_S5000x96_1_0_0_1_n_n : DotDims S5000x16 S16x96 S5000x96 where
  lhsContracting := [1]
  rhsContracting := [0]
  lhsNonContracting := [0]
  rhsNonContracting := [1]
  lhsBatch := []
  rhsBatch := []
  wf := dot_S5000x16_S16x96_S5000x96_1_0_0_1_n_n_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S5000x96_S96x4_S5000x4_1_0_0_1_n_n : DotDims S5000x96 S96x4 S5000x4 where
  lhsContracting := [1]
  rhsContracting := [0]
  lhsNonContracting := [0]
  rhsNonContracting := [1]
  lhsBatch := []
  rhsBatch := []
  wf := dot_S5000x96_S96x4_S5000x4_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S96x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S5000x96.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S96x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S5000x96.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v66) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S1x96.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S96x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S5000x96.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v85) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88) S1x96.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S96x4.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v89) S1x4.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v90) S5000x4.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x16 : Shape := ⟨2, ![50000, 16]⟩
abbrev S2x800000 : Shape := ⟨2, ![2, 800000]⟩
abbrev S16x96 : Shape := ⟨2, ![16, 96]⟩
abbrev S96 : Shape := ⟨1, ![96]⟩
abbrev S3x96x96 : Shape := ⟨3, ![3, 96, 96]⟩
abbrev S3x96 : Shape := ⟨2, ![3, 96]⟩
abbrev S96x4 : Shape := ⟨2, ![96, 4]⟩
abbrev S4 : Shape := ⟨1, ![4]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S1x96 : Shape := ⟨2, ![1, 96]⟩
abbrev S1x96x96 : Shape := ⟨3, ![1, 96, 96]⟩
abbrev S96x96 : Shape := ⟨2, ![96, 96]⟩
abbrev S850000x96 : Shape := ⟨2, ![850000, 96]⟩
abbrev S50000x4 : Shape := ⟨2, ![50000, 4]⟩
abbrev S1x4 : Shape := ⟨2, ![1, 4]⟩

abbrev nBuf : Space → Nat
  | .hbm => 137
  | .vmem => 0
  | .smem => 0
  | _ => 0

abbrev hbmTy0_0 (i : Nat) : BufTy := match i % 128 with
  | 0 => ⟨S50000x16, .f32⟩
  | 1 => ⟨S2x800000, .i32⟩
  | 2 => ⟨S16x96, .f32⟩
  | 3 => ⟨S96, .f32⟩
  | 4 => ⟨S3x96x96, .f32⟩
  | 5 => ⟨S3x96, .f32⟩
  | 6 => ⟨S96x4, .f32⟩
  | 7 => ⟨S4, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x96, .f32⟩
  | 49 => ⟨S1x96, .f32⟩
  | 50 => ⟨S50000x96, .f32⟩
  | 51 => ⟨S50000x96, .f32⟩
  | 52 => ⟨S1x96x96, .f32⟩
  | 53 => ⟨S96x96, .f32⟩
  | 54 => ⟨S1x96, .f32⟩
  | 55 => ⟨S96, .f32⟩
  | 56 => ⟨S50000x96, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x96, .f32⟩
  | 66 => ⟨S850000x1, .f32⟩
  | 67 => ⟨S850000x96, .f32⟩
  | 68 => ⟨S850000x96, .f32⟩
  | 69 => ⟨S_, .f32⟩
  | 70 => ⟨S50000x96, .f32⟩
  | 71 => ⟨S850000x1, .i32⟩
  | 72 => ⟨S50000x96, .f32⟩
  | 73 => ⟨S1x96, .f32⟩
  | 74 => ⟨S50000x96, .f32⟩
  | 75 => ⟨S50000x96, .f32⟩
  | 76 => ⟨S_, .f32⟩
  | 77 => ⟨S50000x96, .f32⟩
  | 78 => ⟨S50000x96, .f32⟩
  | 79 => ⟨S1x96x96, .f32⟩
  | 80 => ⟨S96x96, .f32⟩
  | 81 => ⟨S1x96, .f32⟩
  | 82 => ⟨S96, .f32⟩
  | 83 => ⟨S50000x96, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000x96, .f32⟩
  | 93 => ⟨S850000x1, .f32⟩
  | 94 => ⟨S850000x96, .f32⟩
  | 95 => ⟨S850000x96, .f32⟩
  | 96 => ⟨S_, .f32⟩
  | 97 => ⟨S50000x96, .f32⟩
  | 98 => ⟨S850000x1, .i32⟩
  | 99 => ⟨S50000x96, .f32⟩
  | 100 => ⟨S1x96, .f32⟩
  | 101 => ⟨S50000x96, .f32⟩
  | 102 => ⟨S50000x96, .f32⟩
  | 103 => ⟨S_, .f32⟩
  | 104 => ⟨S50000x96, .f32⟩
  | 105 => ⟨S50000x96, .f32⟩
  | 106 => ⟨S1x96x96, .f32⟩
  | 107 => ⟨S96x96, .f32⟩
  | 108 => ⟨S1x96, .f32⟩
  | 109 => ⟨S96, .f32⟩
  | 110 => ⟨S50000x96, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x96, .f32⟩
  | 120 => ⟨S850000x1, .f32⟩
  | 121 => ⟨S850000x96, .f32⟩
  | 122 => ⟨S850000x96, .f32⟩
  | 123 => ⟨S_, .f32⟩
  | 124 => ⟨S50000x96, .f32⟩
  | 125 => ⟨S850000x1, .i32⟩
  | 126 => ⟨S50000x96, .f32⟩
  | 127 => ⟨S1x96, .f32⟩
  | _ => ⟨S50000x16, .f32⟩

abbrev hbmTy0_1 (i : Nat) : BufTy := match i % 128 with
  | 0 => ⟨S50000x96, .f32⟩
  | 1 => ⟨S50000x96, .f32⟩
  | 2 => ⟨S_, .f32⟩
  | 3 => ⟨S50000x96, .f32⟩
  | 4 => ⟨S50000x96, .f32⟩
  | 5 => ⟨S50000x4, .f32⟩
  | 6 => ⟨S1x4, .f32⟩
  | 7 => ⟨S50000x4, .f32⟩
  | 8 => ⟨S50000x4, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_6 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_call1_cst : Ref sig .tc := ⟨.hbm, 76, rfl⟩
abbrev main_call1_v0 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_9 : Ref sig .tc := ⟨.hbm, 84, rfl⟩
abbrev main_v61 : Ref sig .tc := ⟨.hbm, 85, rfl⟩
abbrev main_v62 : Ref sig .tc := ⟨.hbm, 86, rfl⟩
abbrev main_c_10 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_11 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_call2_cst : Ref sig .tc := ⟨.hbm, 103, rfl⟩
abbrev main_call2_v0 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_12 : Ref sig .tc := ⟨.hbm, 111, rfl⟩
abbrev main_v83 : Ref sig .tc := ⟨.hbm, 112, rfl⟩
abbrev main_v84 : Ref sig .tc := ⟨.hbm, 113, rfl⟩
abbrev main_c_13 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_14 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_call3_cst : Ref sig .tc := ⟨.hbm, 130, rfl⟩
abbrev main_call3_v0 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  slices_S3x96x96_S1x96x96_0_0_0 : S3x96x96.Slices ![0, 0, 0] S1x96x96
  shapeCasts_S1x96x96_S96x96 : S1x96x96.ShapeCasts S96x96
  slices_S3x96_S1x96_0_0 : S3x96.Slices ![0, 0] S1x96
  shapeCasts_S1x96_S96 : S1x96.ShapeCasts S96
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  slices_S3x96x96_S1x96x96_1_0_0 : S3x96x96.Slices ![1, 0, 0] S1x96x96
  slices_S3x96_S1x96_1_0 : S3x96.Slices ![1, 0] S1x96
  slices_S3x96x96_S1x96x96_2_0_0 : S3x96x96.Slices ![2, 0, 0] S1x96x96
  slices_S3x96_S1x96_2_0 : S3x96.Slices ![2, 0] S1x96
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x16_S16x96_S50000x96_1_0_0_1_n_n_wf : DotDims.WF S50000x16 S16x96 S50000x96 [1] [0] [0] [1] [] []
  dot_S50000x96_S96x96_S50000x96_1_0_0_1_n_n_wf : DotDims.WF S50000x96 S96x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x4_S50000x4_1_0_0_1_n_n_wf : DotDims.WF S50000x96 S96x4 S50000x4 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x16_S16x96_S50000x96_1_0_0_1_n_n : DotDims S50000x16 S16x96 S50000x96 where
  lhsContracting := [1]
  rhsContracting := [0]
  lhsNonContracting := [0]
  rhsNonContracting := [1]
  lhsBatch := []
  rhsBatch := []
  wf := dot_S50000x16_S16x96_S50000x96_1_0_0_1_n_n_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x4_S50000x4_1_0_0_1_n_n : DotDims S50000x96 S96x4 S50000x4 where
  lhsContracting := [1]
  rhsContracting := [0]
  lhsNonContracting := [0]
  rhsNonContracting := [1]
  lhsBatch := []
  rhsBatch := []
  wf := dot_S50000x96_S96x4_S50000x4_1_0_0_1_n_n_wf

class Facts : Prop extends Facts₀ where

variable [Facts]
-- ==== Proof.KernelRun.lean ====
/-
  The idealized kernel's run with its RESULT named.

  The program is five tiled regions among stretches of host operations. Its buffer contents at every boundary
  are a fold from the launch memory: a stretch of host operations rewrites the buffers it computes, a region
  replaces its output array by what its grid points wrote back and leaves every other buffer alone. Every weakly
  fair execution ends with every buffer at the fold's last stage; read at the result's buffer and at the eight
  arguments, that is the statement below.
-/
import proofs.«174598_j50680614093670_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result's buffer ends at the last
    stage of the fold, and the arguments end as launched. -/
theorem run : θ_run defs (onTc (τ := τ) (main (F := F))) ⟨m, fun _ => 0, ρ⟩ (fun r => ∀ c : Dev nD,
      r.2.mem ((c.tc : Thread nD τ).loc main_v90) = W12 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
    Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v90 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Fold

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.LibRowForms.lean ====
/-
  Rows of a dense layer, for any extents, at the extended reals.

  Three small readings that the tiled and the whole-array forms of a dense layer share:
  * a one-row matrix `b : [1, N]` repeated over `M` rows and added: entry `(p, q)` gains `b (0, q)`;
  * a vector `v : [N]` made a one-row matrix is the same one-row matrix whether it is re-laid (a reshape) or
    repeated along a new leading axis of extent one (a broadcast): both have entry `(0, q) = v q`;
  * a plain product into a zero accumulator whose two operands are known entry by entry.
-/
import proofs.«174598_j50680614093670_1_alg».proof.Proof.LibPlainDot
import Idealize.ShloMosaic.Lib.ValueLayout
import Idealize.ShloMosaic.Lib.Pipeline.Value

noncomputable section

namespace Cert.RowForms

open Idealize.ShloMosaic Idealize.ShloMosaic.ValueIdx

variable {M K N : Nat}

/-- Adding a one-row matrix repeated over the rows: entry `(p, q)` gains the row's entry `q`. -/
theorem add_row_apply (Y : FVec Ideal ⟨2, ![M, N]⟩ .f32) (b : FVec Ideal ⟨2, ![1, N]⟩ .f32)
    (h : (⟨2, ![1, N]⟩ : Shape).BroadcastsInDim ⟨2, ![M, N]⟩ ![0, 1]) (p : Fin M) (q : Fin N) :
    addf Y (broadcastInDim ⟨2, ![M, N]⟩ ![0, 1] h b) (ix2 p q) = Y (ix2 p q) + b (ix2 (0 : Fin 1) q) := by
  rw [addf_apply]
  rw [broadcastInDim_apply ![0, 1] h _ (ix2 p q) (ix2 (0 : Fin 1) q) (fun a => by
    match a with
    | ⟨0, _⟩ => rfl
    | ⟨1, _⟩ =>
      show q.val = if N = 1 then 0 else q.val
      split
      · have := q.isLt; omega
      · rfl)]

/-- A vector repeated along a new leading axis of extent one, read at `(0, q)`. -/
theorem lead_apply {α : Type} (v : (⟨1, ![N]⟩ : Shape).Idx → α)
    (h : (⟨1, ![N]⟩ : Shape).BroadcastsInDim ⟨2, ![1, N]⟩ ![1]) (q : Fin N) :
    broadcastInDim ⟨2, ![1, N]⟩ ![1] h v (ix2 (0 : Fin 1) q) = v (ix1 q) := by
  rw [broadcastInDim_apply ![1] h v (ix2 (0 : Fin 1) q) (ix1 q) (fun a => by
    match a with
    | ⟨0, _⟩ =>
      show q.val = if N = 1 then 0 else q.val
      split
      · have := q.isLt; omega
      · rfl)]

/-- A vector re-laid as a one-row matrix IS the vector repeated along a new leading axis of extent one. -/
theorem cast_eq_lead {α : Type} (v : (⟨1, ![N]⟩ : Shape).Idx → α)
    (hc : (⟨1, ![N]⟩ : Shape).ShapeCasts ⟨2, ![1, N]⟩)
    (hb : (⟨1, ![N]⟩ : Shape).BroadcastsInDim ⟨2, ![1, N]⟩ ![1]) :
    shapeCast ⟨2, ![1, N]⟩ v hc = broadcastInDim ⟨2, ![1, N]⟩ ![1] hb v := by
  funext j
  obtain ⟨z, q, rfl⟩ : ∃ (z : Fin 1) (q : Fin N), j = ix2 z q := ⟨j 0, j 1, eq_ix2 j⟩
  obtain rfl : z = 0 := Subsingleton.elim _ _
  rw [shapeCast_a_1a_apply v hc 0 q, lead_apply v hb q]

/-- A plain product into the zero accumulator, both operands known entry by entry. -/
theorem mm_apply {φ₁ φ₂ : FTy} (d : DotDims ⟨2, ![M, K]⟩ ⟨2, ![K, N]⟩ ⟨2, ![M, N]⟩) (hd : Cert.PlainDot.IsPlain d)
    (prec : Option ContractPrecision) (X : FVec Ideal ⟨2, ![M, K]⟩ φ₁) (W : FVec Ideal ⟨2, ![K, N]⟩ φ₂)
    (xr : Fin M → Fin K → EReal) (wm : Fin K → Fin N → EReal)
    (hX : ∀ p k, X (ix2 p k) = xr p k) (hW : ∀ k q, W (ix2 k q) = wm k q) (p : Fin M) (q : Fin N) :
    matmul d prec X W (constant ⟨2, ![M, N]⟩ .f32 0x00000000#32) (ix2 p q) = ∑ k : Fin K, xr p k * wm k q := by
  refine (Ideal.matmul_constant_zero_apply d prec X W (ix2 p q)).trans ?_
  refine (Cert.PlainDot.sum_contr d hd X W p q).trans ?_
  exact Finset.sum_congr rfl fun k _ => by rw [hX p k, hW k q]

/-- The host's plain product, both operands known entry by entry. -/
theorem dot_apply {φ₁ φ₂ : FTy} (d : DotDims ⟨2, ![M, K]⟩ ⟨2, ![K, N]⟩ ⟨2, ![M, N]⟩) (hd : Cert.PlainDot.IsPlain d)
    (prec : Option ContractPrecision) (X : FVec Ideal ⟨2, ![M, K]⟩ φ₁) (W : FVec Ideal ⟨2, ![K, N]⟩ φ₂)
    (xr : Fin M → Fin K → EReal) (hX : ∀ p k, X (ix2 p k) = xr p k) (p : Fin M) (q : Fin N) :
    Host.dotGeneral d prec X W (ix2 p q) = ∑ k : Fin K, xr p k * W (ix2 k q) := by
  refine (Ideal.dotGeneral_apply d prec .single X W (ix2 p q)).trans ?_
  refine (Cert.PlainDot.sum_contr d hd X W p q).trans ?_
  exact Finset.sum_congr rfl fun k _ => by rw [hX p k]

end Cert.RowForms

end
-- ==== Proof.LibHostRows.lean ====
/-
  Reading a host array of rows, operation by operation, at the extended reals: the host's product, its bias spread over
  the rows (a vector made a one-row matrix, then repeated), and its rectifier against a repeated zero constant. Each
  lemma takes the rows of the operand and returns the rows of the result, for arbitrary extents.
-/
import proofs.«174598_j50680614093670_1_alg».proof.Proof.LibPlainDot
import Idealize.ShloMosaic.Lib.Pipeline.Value

noncomputable section

namespace Cert.HostRows

open Idealize.ShloMosaic Idealize.ShloMosaic.ValueIdx

variable {M K N : Nat}

/-- The host's plain product: row `p` of the result is row `p` of the left operand times the matrix. -/
theorem dot_rows {φ₁ φ₂ : FTy} (d : DotDims ⟨2, ![M, K]⟩ ⟨2, ![K, N]⟩ ⟨2, ![M, N]⟩) (hd : Cert.PlainDot.IsPlain d)
    (prec : Option ContractPrecision) (X : FVec Ideal ⟨2, ![M, K]⟩ φ₁) (w : FVec Ideal ⟨2, ![K, N]⟩ φ₂)
    (xr : Fin M → Fin K → EReal) (hX : ∀ p k, X (ix2 p k) = xr p k) :
    ∀ p q, Host.dotGeneral d prec X w (ix2 p q) = ∑ k : Fin K, xr p k * w (ix2 k q) := fun p q => by
  refine (Ideal.dotGeneral_apply d prec .single X w (ix2 p q)).trans ?_
  refine (Cert.PlainDot.sum_contr d hd X w p q).trans ?_
  exact Finset.sum_congr rfl fun k _ => by rw [hX p k]

/-- Adding a bias vector, made a one-row matrix and repeated over the rows. -/
theorem bias_rows (Y : FVec Ideal ⟨2, ![M, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (yr : Fin M → Fin N → EReal) (hY : ∀ p q, Y (ix2 p q) = yr p q) :
    ∀ p q, addf Y (broadcastInDim ⟨2, ![M, N]⟩ ![0, 1] h2 (broadcastInDim ⟨2, ![1, N]⟩ ![1] h1 b)) (ix2 p q) = yr p q + b (ix1 q) := fun p q => by
  rw [addf_apply, hY p q]
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-- The rectifier against the zero constant repeated over the array. -/
theorem relu_rows (Y : FVec Ideal ⟨2, ![M, N]⟩ .f32) (h0 : (⟨0, ![]⟩ : Shape).BroadcastsInDim ⟨2, ![M, N]⟩ ![])
    (yr : Fin M → Fin N → EReal) (hY : ∀ p q, Y (ix2 p q) = yr p q) :
    ∀ p q, maximumf Y (broadcastInDim ⟨2, ![M, N]⟩ ![] h0 (constant (F := Ideal) ⟨0, ![]⟩ .f32 0x00000000#32)) (ix2 p q) = max (yr p q) 0 := fun p q => by
  rw [maximumf_apply, hY p q, broadcastInDim_apply ![] h0 _ (ix2 p q) ix0 (fun a => a.elim0), constant_apply, Ideal.ofBits_zero_f32]

end Cert.HostRows

end
-- ==== Proof.Spec.lean ====
/-
  The network, layer by layer, as whole-array functions.

  A node-feature array `H : [50000, F]` goes through
    `dense`    H·W + b                         (the input projection, F = 16 → 96),
    `project`  H·W                             (a layer's projection before its messages are gathered),
    `agg`      the messages: row `src e` of the projected features, scaled by the edge's weight, summed into row `dst e`,
    `layer`    max(A + b, 0)·W                 (a layer's bias and rectifier, fused with the NEXT layer's projection),
    `head`     max(A + b, 0)·W + b'            (the last layer's bias and rectifier, fused with the output projection).
  A bias enters as a one-row matrix. Read at an entry, every product is a plain sum of products over the contracted
  axis, so a block of 5000 rows computed on its own agrees with the same rows of the whole array.
-/
import proofs.«174598_j50680614093670_1_alg».proof.Proof.Gen.ReferenceIdeal
import proofs.«174598_j50680614093670_1_alg».proof.Proof.LibRowForms
import proofs.«174598_j50680614093670_1_alg».proof.Proof.LibHostRows

noncomputable section

namespace Cert.Gcn

open Idealize.ShloMosaic Idealize.ShloMosaic.ValueIdx Cert.ReferenceIdeal Cert.ReferenceIdeal.Gen

/-- The zero array of node features. -/
def zeros : FVec Ideal S50000x96 .f32 :=
  broadcastInDim S50000x96 ![] bcast_S_S50000x96 (constant (F := Ideal) S_ .f32 0x00000000#32)

/-- The input projection `X·W + b`. -/
def dense (X : FVec Ideal S50000x16 .f32) (W : FVec Ideal S16x96 .f32) (b : FVec Ideal S1x96 .f32) : FVec Ideal S50000x96 .f32 :=
  addf (Host.dotGeneral dot_S50000x16_S16x96_S50000x96_1_0_0_1_n_n none X W)
    (broadcastInDim S50000x96 ![0, 1] bcast_S1x96_S50000x96_0_1 b)

/-- A layer's projection `H·W`. -/
def project (H : FVec Ideal S50000x96 .f32) (W : FVec Ideal S96x96 .f32) : FVec Ideal S50000x96 .f32 :=
  Host.dotGeneral dot_S50000x96_S96x96_S50000x96_1_0_0_1_n_n none H W

/-- Bias and rectifier: `max(A + b, 0)`. -/
def act (A : FVec Ideal S50000x96 .f32) (b : FVec Ideal S1x96 .f32) : FVec Ideal S50000x96 .f32 :=
  maximumf (addf A (broadcastInDim S50000x96 ![0, 1] bcast_S1x96_S50000x96_0_1 b)) zeros

/-- Bias, rectifier and the next projection: `max(A + b, 0)·W`. -/
def layer (A : FVec Ideal S50000x96 .f32) (b : FVec Ideal S1x96 .f32) (W : FVec Ideal S96x96 .f32) : FVec Ideal S50000x96 .f32 :=
  project (act A b) W

/-- Bias, rectifier and the output projection: `max(A + b, 0)·W + b'`. -/
def head (A : FVec Ideal S50000x96 .f32) (b : FVec Ideal S1x96 .f32) (W : FVec Ideal S96x4 .f32) (b' : FVec Ideal S1x4 .f32) :
    FVec Ideal S50000x4 .f32 :=
  addf (Host.dotGeneral dot_S50000x96_S96x4_S50000x4_1_0_0_1_n_n none (act A b) W)
    (broadcastInDim S50000x4 ![0, 1] bcast_S1x4_S50000x4_0_1 b')

/-! ## The graph: edges with self-loops, their symmetric weights -/

/-- The edge sources: row 0 of the edge list, then one self-loop per node. -/
def src (x : IVec S2x800000 32) : IVec S850000 32 :=
  concatenate S850000 0 [⟨S800000, shapeCast S800000 (extractStridedSlice S1x800000 ![0, 0] x slices_S2x800000_S1x800000_0_0) shapeCasts_S1x800000_S800000⟩,
    ⟨S50000, iotaInDim S50000 32 0⟩] concatenates_S800000_S50000_S850000_d0

/-- The edge targets: row 1 of the edge list, then one self-loop per node. -/
def dst (x : IVec S2x800000 32) : IVec S850000 32 :=
  concatenate S850000 0 [⟨S800000, shapeCast S800000 (extractStridedSlice S1x800000 ![1, 0] x slices_S2x800000_S1x800000_1_0) shapeCasts_S1x800000_S800000⟩,
    ⟨S50000, iotaInDim S50000 32 0⟩] concatenates_S800000_S50000_S850000_d0

/-- Node indices as a gather takes them: a negative index counted from the end, one index per row. -/
def wrap (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- A node's degree: the number of edges arriving at it. -/
def deg (d : IVec S850000 32) : FVec Ideal S50000 .f32 :=
  Host.scatterAdd scatter_S50000_S850000x1_S850000_n_0_0_1
    (broadcastInDim S50000 ![] bcast_S_S50000 (constant (F := Ideal) S_ .f32 0x00000000#32))
    (broadcastInDim S850000x1 ![0] bcast_S850000_S850000x1_0 d)
    (broadcastInDim S850000 ![] bcast_S_S850000 (constant (F := Ideal) S_ .f32 0x3F800000#32))

/-- `deg^(-1/2)` where the degree is positive, zero elsewhere. -/
def dinv (d : IVec S850000 32) : FVec Ideal S50000 .f32 :=
  select (cmpf (F := Ideal) .ogt (deg d) (broadcastInDim S50000 ![] bcast_S_S50000 (constant (F := Ideal) S_ .f32 0x00000000#32)))
    (Host.rsqrt (deg d))
    (broadcastInDim S50000 ![] bcast_S_S50000 (id (constant (F := Ideal) S_ .f32 0x00000000#32)))

/-- An edge's weight from a table `r` of per-node factors: `r (src e) · r (dst e)`. -/
def norm' (r : FVec Ideal S50000 .f32) (s d : IVec S850000 32) : FVec Ideal S850000 .f32 :=
  mulf (Host.gather gather_S50000_S850000x1_S850000_n_0_n_n_0_1_1 r (wrap s))
    (Host.gather gather_S50000_S850000x1_S850000_n_0_n_n_0_1_1 r (wrap d))

/-- An edge's symmetric weight: `dinv (src e) · dinv (dst e)`. -/
def norm (s d : IVec S850000 32) : FVec Ideal S850000 .f32 := norm' (dinv d) s d

/-- The messages of one layer: for every edge `e` (self-loops included) row `s e` of `H` times the edge's weight `n e`,
    summed into row `d e`. -/
def agg (s d : IVec S850000 32) (n : FVec Ideal S850000 .f32) (H : FVec Ideal S50000x96 .f32) : FVec Ideal S50000x96 .f32 :=
  Host.scatterAdd scatter_S50000x96_S850000x1_S850000x96_1_0_0_1 zeros
    (broadcastInDim S850000x1 ![0] bcast_S850000_S850000x1_0 d)
    (mulf (Host.gather gather_S50000x96_S850000x1_S850000x96_1_0_n_n_0_1_196 H (wrap s))
      (broadcastInDim S850000x96 ![0, 1] bcast_S850000x1_S850000x96_0_1
        (broadcastInDim S850000x1 ![0] bcast_S850000_S850000x1_0 n)))

/-! ## The parameters as the layers take them -/

/-- Layer `l`'s weight matrix, cut out of the stack of three. -/
def w0 (x : FVec Ideal S3x96x96 .f32) : FVec Ideal S96x96 .f32 :=
  shapeCast S96x96 (extractStridedSlice S1x96x96 ![0, 0, 0] x slices_S3x96x96_S1x96x96_0_0_0) shapeCasts_S1x96x96_S96x96
def w1 (x : FVec Ideal S3x96x96 .f32) : FVec Ideal S96x96 .f32 :=
  shapeCast S96x96 (extractStridedSlice S1x96x96 ![1, 0, 0] x slices_S3x96x96_S1x96x96_1_0_0) shapeCasts_S1x96x96_S96x96
def w2 (x : FVec Ideal S3x96x96 .f32) : FVec Ideal S96x96 .f32 :=
  shapeCast S96x96 (extractStridedSlice S1x96x96 ![2, 0, 0] x slices_S3x96x96_S1x96x96_2_0_0) shapeCasts_S1x96x96_S96x96

/-- Layer `l`'s bias vector, cut out of the stack of three. -/
def v0 (x : FVec Ideal S3x96 .f32) : FVec Ideal S96 .f32 :=
  shapeCast S96 (extractStridedSlice S1x96 ![0, 0] x slices_S3x96_S1x96_0_0) shapeCasts_S1x96_S96
def v1 (x : FVec Ideal S3x96 .f32) : FVec Ideal S96 .f32 :=
  shapeCast S96 (extractStridedSlice S1x96 ![1, 0] x slices_S3x96_S1x96_1_0) shapeCasts_S1x96_S96
def v2 (x : FVec Ideal S3x96 .f32) : FVec Ideal S96 .f32 :=
  shapeCast S96 (extractStridedSlice S1x96 ![2, 0] x slices_S3x96_S1x96_2_0) shapeCasts_S1x96_S96

/-- A bias vector as a one-row matrix. -/
def row (v : FVec Ideal S96 .f32) : FVec Ideal S1x96 .f32 := broadcastInDim S1x96 ![1] bcast_S96_S1x96_1 v
def row4 (v : FVec Ideal S4 .f32) : FVec Ideal S1x4 .f32 := broadcastInDim S1x4 ![1] bcast_S4_S1x4_1 v

/-! ## The network -/

/-- The features entering layer 0's aggregation: the input projection, projected by layer 0's weights. -/
def hw0 (x0 : FVec Ideal S50000x16 .f32) (x2 : FVec Ideal S16x96 .f32) (x3 : FVec Ideal S96 .f32) (x4 : FVec Ideal S3x96x96 .f32) :
    FVec Ideal S50000x96 .f32 :=
  project (dense x0 x2 (row x3)) (w0 x4)

/-- One round of message passing over the graph `x1`. -/
def msgs (x1 : IVec S2x800000 32) (H : FVec Ideal S50000x96 .f32) : FVec Ideal S50000x96 .f32 :=
  agg (src x1) (dst x1) (norm (src x1) (dst x1)) H

/-- The features entering the second round: round one's messages, layer 0's bias and rectifier, layer 1's weights. -/
def hw1 (x0 : FVec Ideal S50000x16 .f32) (x1 : IVec S2x800000 32) (x2 : FVec Ideal S16x96 .f32) (x3 : FVec Ideal S96 .f32)
    (x4 : FVec Ideal S3x96x96 .f32) (x5 : FVec Ideal S3x96 .f32) : FVec Ideal S50000x96 .f32 :=
  layer (msgs x1 (hw0 x0 x2 x3 x4)) (row (v0 x5)) (w1 x4)

/-- The features entering the third round. -/
def hw2 (x0 : FVec Ideal S50000x16 .f32) (x1 : IVec S2x800000 32) (x2 : FVec Ideal S16x96 .f32) (x3 : FVec Ideal S96 .f32)
    (x4 : FVec Ideal S3x96x96 .f32) (x5 : FVec Ideal S3x96 .f32) : FVec Ideal S50000x96 .f32 :=
  layer (msgs x1 (hw1 x0 x1 x2 x3 x4 x5)) (row (v1 x5)) (w2 x4)

/-- The whole network: three rounds of message passing, each followed by its bias and rectifier fused with the next
    projection; the last projection is the output's. -/
def network (x0 : FVec Ideal S50000x16 .f32) (x1 : IVec S2x800000 32) (x2 : FVec Ideal S16x96 .f32) (x3 : FVec Ideal S96 .f32)
    (x4 : FVec Ideal S3x96x96 .f32) (x5 : FVec Ideal S3x96 .f32) (x6 : FVec Ideal S96x4 .f32) (x7 : FVec Ideal S4 .f32) :
    FVec Ideal S50000x4 .f32 :=
  head (msgs x1 (hw2 x0 x1 x2 x3 x4 x5)) (row (v2 x5)) x6 (row4 x7)

/-! ## The layers read at an entry -/

theorem plain16 : Cert.PlainDot.IsPlain dot_S50000x16_S16x96_S50000x96_1_0_0_1_n_n := ⟨rfl, rfl, rfl, rfl, rfl, rfl⟩
theorem plain96 : Cert.PlainDot.IsPlain dot_S50000x96_S96x96_S50000x96_1_0_0_1_n_n := ⟨rfl, rfl, rfl, rfl, rfl, rfl⟩
theorem plain4 : Cert.PlainDot.IsPlain dot_S50000x96_S96x4_S50000x4_1_0_0_1_n_n := ⟨rfl, rfl, rfl, rfl, rfl, rfl⟩

theorem dense_apply (X : FVec Ideal S50000x16 .f32) (W : FVec Ideal S16x96 .f32) (b : FVec Ideal S1x96 .f32)
    (p : Fin 50000) (q : Fin 96) :
    dense X W b (ix2 p q) = (∑ k : Fin 16, X (ix2 p k) * W (ix2 k q)) + b (ix2 (0 : Fin 1) q) := by
  unfold dense
  rw [Cert.RowForms.add_row_apply, Cert.PlainDot.dotGeneral_apply _ plain16]

theorem project_apply (H : FVec Ideal S50000x96 .f32) (W : FVec Ideal S96x96 .f32) (p : Fin 50000) (q : Fin 96) :
    project H W (ix2 p q) = ∑ k : Fin 96, H (ix2 p k) * W (ix2 k q) := by
  unfold project
  rw [Cert.PlainDot.dotGeneral_apply _ plain96]

theorem act_apply (A : FVec Ideal S50000x96 .f32) (b : FVec Ideal S1x96 .f32) (p : Fin 50000) (k : Fin 96) :
    act A b (ix2 p k) = max (A (ix2 p k) + b (ix2 (0 : Fin 1) k)) 0 := by
  unfold act zeros
  exact Cert.HostRows.relu_rows _ bcast_S_S50000x96 (fun p k => A (ix2 p k) + b (ix2 (0 : Fin 1) k))
    (fun p k => Cert.RowForms.add_row_apply A b bcast_S1x96_S50000x96_0_1 p k) p k

theorem layer_apply (A : FVec Ideal S50000x96 .f32) (b : FVec Ideal S1x96 .f32) (W : FVec Ideal S96x96 .f32)
    (p : Fin 50000) (q : Fin 96) :
    layer A b W (ix2 p q) = ∑ k : Fin 96, max (A (ix2 p k) + b (ix2 (0 : Fin 1) k)) 0 * W (ix2 k q) := by
  unfold layer
  rw [project_apply]
  exact Finset.sum_congr rfl fun k _ => by rw [act_apply]

theorem head_apply (A : FVec Ideal S50000x96 .f32) (b : FVec Ideal S1x96 .f32) (W : FVec Ideal S96x4 .f32) (b' : FVec Ideal S1x4 .f32)
    (p : Fin 50000) (q : Fin 4) :
    head A b W b' (ix2 p q)
      = (∑ k : Fin 96, max (A (ix2 p k) + b (ix2 (0 : Fin 1) k)) 0 * W (ix2 k q)) + b' (ix2 (0 : Fin 1) q) := by
  unfold head
  rw [Cert.RowForms.add_row_apply, Cert.PlainDot.dotGeneral_apply _ plain4]
  congr 1
  exact Finset.sum_congr rfl fun k _ => by rw [act_apply]

end Cert.Gcn

end
-- ==== Proof.Carry.lean ====
/-
  What the program never rewrites.

  The edge list's sources, targets and weights are computed once, before the first region, and the parameter arrays are
  arguments. No later host operation writes any of them and no region has one of them as its output, so each holds,
  at every later boundary of the program, what it held when the first region was entered.
-/
import proofs.«174598_j50680614093670_1_alg».proof.Proof.Gen.KernelIdeal.Frame
import Idealize.ShloMosaic.Lib.StableHlo.Run

set_option maxRecDepth 16384

noncomputable section

namespace Cert.KernelIdeal.Carry

open Cert.KernelIdeal Cert.KernelIdeal.Gen Idealize.ShloMosaic Idealize.ShloMosaic.TcCoe Idealize.ShloMosaic.StableHlo

variable {F : FTy → Type} [FloatOps F]
variable (m : (ℓ : Loc nD τ sig) → Buf (Elt F) ℓ) (ρ : Dev nD → PrngReg) (c : Dev nD)

/-- A stretch of host operations leaves alone a buffer none of them writes. -/
macro "host_keeps" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- The buffers followed: the parameter arrays the later stretches read, and the edges' sources, targets and weights. -/
abbrev followed : List (Ref sig .tc) := [main_arg4, main_arg5, main_arg6, main_arg7, main_v3, main_v6, main_v29]

macro "each_followed" h:ident t:tactic : tactic =>
  `(tactic| (fin_cases $h:ident <;> $t))

theorem keep4 (b : Ref sig .tc) (hb : b ∈ followed) : W4 m ρ c (Proc.devRef .tc b) = W3 m ρ c (Proc.devRef .tc b) := by
  each_followed hb (exact W4_of_ne m ρ c _ (by decide))
theorem keep5 (b : Ref sig .tc) (hb : b ∈ followed) : W5 m ρ c (Proc.devRef .tc b) = W4 m ρ c (Proc.devRef .tc b) := by
  each_followed hb (host_keeps hostOps1)
theorem keep6 (b : Ref sig .tc) (hb : b ∈ followed) : W6 m ρ c (Proc.devRef .tc b) = W5 m ρ c (Proc.devRef .tc b) := by
  each_followed hb (exact W6_of_ne m ρ c _ (by decide))
theorem keep7 (b : Ref sig .tc) (hb : b ∈ followed) : W7 m ρ c (Proc.devRef .tc b) = W6 m ρ c (Proc.devRef .tc b) := by
  each_followed hb (host_keeps hostOps2)
theorem keep8 (b : Ref sig .tc) (hb : b ∈ followed) : W8 m ρ c (Proc.devRef .tc b) = W7 m ρ c (Proc.devRef .tc b) := by
  each_followed hb (exact W8_of_ne m ρ c _ (by decide))
theorem keep9 (b : Ref sig .tc) (hb : b ∈ followed) : W9 m ρ c (Proc.devRef .tc b) = W8 m ρ c (Proc.devRef .tc b) := by
  each_followed hb (host_keeps hostOps3)
theorem keep10 (b : Ref sig .tc) (hb : b ∈ followed) : W10 m ρ c (Proc.devRef .tc b) = W9 m ρ c (Proc.devRef .tc b) := by
  each_followed hb (exact W10_of_ne m ρ c _ (by decide))
theorem keep11 (b : Ref sig .tc) (hb : b ∈ followed) : W11 m ρ c (Proc.devRef .tc b) = W10 m ρ c (Proc.devRef .tc b) := by
  each_followed hb (host_keeps hostOps4)

/-- From the first region's entry to the second region's exit. -/
theorem at4 (b : Ref sig .tc) (hb : b ∈ followed) : W4 m ρ c (Proc.devRef .tc b) = W3 m ρ c (Proc.devRef .tc b) := keep4 m ρ c b hb
theorem at6 (b : Ref sig .tc) (hb : b ∈ followed) : W6 m ρ c (Proc.devRef .tc b) = W3 m ρ c (Proc.devRef .tc b) :=
  (keep6 m ρ c b hb).trans ((keep5 m ρ c b hb).trans (keep4 m ρ c b hb))
theorem at8 (b : Ref sig .tc) (hb : b ∈ followed) : W8 m ρ c (Proc.devRef .tc b) = W3 m ρ c (Proc.devRef .tc b) :=
  (keep8 m ρ c b hb).trans ((keep7 m ρ c b hb).trans (at6 m ρ c b hb))
theorem at10 (b : Ref sig .tc) (hb : b ∈ followed) : W10 m ρ c (Proc.devRef .tc b) = W3 m ρ c (Proc.devRef .tc b) :=
  (keep10 m ρ c b hb).trans ((keep9 m ρ c b hb).trans (at8 m ρ c b hb))
theorem at11 (b : Ref sig .tc) (hb : b ∈ followed) : W11 m ρ c (Proc.devRef .tc b) = W3 m ρ c (Proc.devRef .tc b) :=
  (keep11 m ρ c b hb).trans (at10 m ρ c b hb)

end Cert.KernelIdeal.Carry

end
-- ==== Proof.Entry.lean ====
/-
  What the first region finds.

  Before the first region the program computes, from the edge list alone, the edges' sources and targets (one
  self-loop appended per node), the degree of every node, `deg^(-1/2)` where the degree is positive, and from these the
  edges' symmetric weights; it also re-lays the input bias as a one-row matrix. These are the same host operations, in
  the same order, as the specification's `src`, `dst`, `deg`, `dinv` and `norm`; the argument arrays are still as
  launched. The operations come in three stretches (the second is the `where` that guards the inverse square root), and
  are read stretch by stretch.
-/
import proofs.«174598_j50680614093670_1_alg».proof.Proof.Gen.KernelIdeal.Frame
import proofs.«174598_j50680614093670_1_alg».proof.Proof.Spec
import proofs.«174598_j50680614093670_1_alg».proof.Proof.Carry
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg) (c : Dev nD)

open Cert.KernelIdeal.Carry

/-! ## After the first stretch: sources, targets, degrees -/

theorem src1 : W1 m ρ c (Proc.devRef .tc main_v3) = Cert.Gcn.src (m ((c : Thread nD τ).loc main_arg1)) := by
  dsimp only [W1, hostOps0]; after_results <;> try rfl

theorem dst1 : W1 m ρ c (Proc.devRef .tc main_v6) = Cert.Gcn.dst (m ((c : Thread nD τ).loc main_arg1)) := by
  dsimp only [W1, hostOps0]; after_results <;> try rfl

theorem pos1 : W1 m ρ c (Proc.devRef .tc main_v12)
    = cmpf (F := Ideal) .ogt (Cert.Gcn.deg (Cert.Gcn.dst (m ((c : Thread nD τ).loc main_arg1))))
        (broadcastInDim S50000 ![] bcast_S_S50000 (constant (F := Ideal) S_ .f32 0x00000000#32)) := by
  dsimp only [W1, hostOps0]; after_results <;> try rfl

theorem rsqrt1 : W1 m ρ c (Proc.devRef .tc main_v13)
    = Host.rsqrt (Cert.Gcn.deg (Cert.Gcn.dst (m ((c : Thread nD τ).loc main_arg1)))) := by
  dsimp only [W1, hostOps0]; after_results <;> try rfl

theorem zero1 : W1 m ρ c (Proc.devRef .tc main_cst_2) = constant (F := Ideal) S_ .f32 0x00000000#32 := by
  dsimp only [W1, hostOps0]; after_results <;> try rfl

/-! ## After the second stretch: the guarded inverse square root -/

theorem dinv2 : W2 m ρ c (Proc.devRef .tc main_v14) = Cert.Gcn.dinv (Cert.Gcn.dst (m ((c : Thread nD τ).loc main_arg1))) := by
  have e : W2 m ρ c (Proc.devRef .tc main_v14)
      = select (W1 m ρ c (Proc.devRef .tc main_v12)) (W1 m ρ c (Proc.devRef .tc main_v13))
          (broadcastInDim S50000 ![] bcast_S_S50000 (id (W1 m ρ c (Proc.devRef .tc main_cst_2)))) := by
    dsimp only [W2]; generalize W1 m ρ c = U; dsimp only [hostOps0_1]; after_results <;> try rfl
  rw [e, pos1, rsqrt1, zero1]; rfl

theorem src2 : W2 m ρ c (Proc.devRef .tc main_v3) = Cert.Gcn.src (m ((c : Thread nD τ).loc main_arg1)) := by
  refine Eq.trans ?_ (src1 m ρ c); host_keeps hostOps0_1

theorem dst2 : W2 m ρ c (Proc.devRef .tc main_v6) = Cert.Gcn.dst (m ((c : Thread nD τ).loc main_arg1)) := by
  refine Eq.trans ?_ (dst1 m ρ c); host_keeps hostOps0_1

/-! ## After the third stretch: the edges' weights, and the input bias as a row -/

theorem norm_eq : W3 m ρ c (Proc.devRef .tc main_v29)
    = Cert.Gcn.norm (Cert.Gcn.src (m ((c : Thread nD τ).loc main_arg1))) (Cert.Gcn.dst (m ((c : Thread nD τ).loc main_arg1))) := by
  have e : W3 m ρ c (Proc.devRef .tc main_v29)
      = Cert.Gcn.norm' (W2 m ρ c (Proc.devRef .tc main_v14)) (W2 m ρ c (Proc.devRef .tc main_v3)) (W2 m ρ c (Proc.devRef .tc main_v6)) := by
    dsimp only [W3]; generalize W2 m ρ c = U; dsimp only [hostOps0_2]; after_results_simp <;> try rfl
  rw [e, dinv2, src2, dst2]; rfl

theorem src_eq : W3 m ρ c (Proc.devRef .tc main_v3) = Cert.Gcn.src (m ((c : Thread nD τ).loc main_arg1)) := by
  refine Eq.trans ?_ (src2 m ρ c); host_keeps hostOps0_2

theorem dst_eq : W3 m ρ c (Proc.devRef .tc main_v6) = Cert.Gcn.dst (m ((c : Thread nD τ).loc main_arg1)) := by
  refine Eq.trans ?_ (dst2 m ρ c); host_keeps hostOps0_2

/-- A buffer that the first two stretches leave alone holds, after them, its launch contents. -/
macro "launch_kept" : tactic =>
  `(tactic| (refine Eq.trans (b := W1 _ _ _ _) (by host_keeps hostOps0_1) ?_; host_keeps hostOps0))

theorem arg3_2 : W2 m ρ c (Proc.devRef .tc main_arg3) = m ((c : Thread nD τ).loc main_arg3) := by launch_kept

theorem bias_eq : W3 m ρ c (Proc.devRef .tc main_v30) = shapeCast S1x96 (m ((c : Thread nD τ).loc main_arg3)) shapeCasts_S96_S1x96 := by
  have e : W3 m ρ c (Proc.devRef .tc main_v30) = shapeCast S1x96 (W2 m ρ c (Proc.devRef .tc main_arg3)) shapeCasts_S96_S1x96 := by
    dsimp only [W3]; generalize W2 m ρ c = U; dsimp only [hostOps0_2]; after_results_simp <;> try rfl
  rw [e, arg3_2]
theorem arg0_eq : W3 m ρ c (Proc.devRef .tc main_arg0) = m ((c : Thread nD τ).loc main_arg0) := by
  refine Eq.trans (b := W2 m ρ c (Proc.devRef .tc main_arg0)) (by host_keeps hostOps0_2) ?_; launch_kept
theorem arg2_eq : W3 m ρ c (Proc.devRef .tc main_arg2) = m ((c : Thread nD τ).loc main_arg2) := by
  refine Eq.trans (b := W2 m ρ c (Proc.devRef .tc main_arg2)) (by host_keeps hostOps0_2) ?_; launch_kept
theorem arg4_eq : W3 m ρ c (Proc.devRef .tc main_arg4) = m ((c : Thread nD τ).loc main_arg4) := by
  refine Eq.trans (b := W2 m ρ c (Proc.devRef .tc main_arg4)) (by host_keeps hostOps0_2) ?_; launch_kept
theorem arg5_eq : W3 m ρ c (Proc.devRef .tc main_arg5) = m ((c : Thread nD τ).loc main_arg5) := by
  refine Eq.trans (b := W2 m ρ c (Proc.devRef .tc main_arg5)) (by host_keeps hostOps0_2) ?_; launch_kept
theorem arg6_eq : W3 m ρ c (Proc.devRef .tc main_arg6) = m ((c : Thread nD τ).loc main_arg6) := by
  refine Eq.trans (b := W2 m ρ c (Proc.devRef .tc main_arg6)) (by host_keeps hostOps0_2) ?_; launch_kept
theorem arg7_eq : W3 m ρ c (Proc.devRef .tc main_arg7) = m ((c : Thread nD τ).loc main_arg7) := by
  refine Eq.trans (b := W2 m ρ c (Proc.devRef .tc main_arg7)) (by host_keeps hostOps0_2) ?_; launch_kept

end Cert.KernelIdeal.Entry

end
-- ==== Proof.LibTileRows.lean ====
/-
  Reading a tile of rows, operation by operation, at the extended reals.

  A two-axis array `X` of `M` rows is described by its rows: a family `xr p k` with `X (p, k) = xr p k`. Each lemma
  below takes such a description of an operation's operands and returns the description of its result, so that a
  chain of operations is read by composing the lemmas, never by rewriting inside a large term. Everything is stated
  for arbitrary extents, so a 4096-row tile and a 262144-row array are read by the same lemmas.

  At the extended reals a change of float format is the identity, a product into a zero accumulator is the plain
  sum of products, and the rectifier is the maximum with zero.
-/
import proofs.«174598_j50680614093670_1_alg».proof.Proof.LibPlainDot
import Idealize.ShloMosaic.Lib.ValueLayout
import Idealize.ShloMosaic.Lib.Pipeline.Value

noncomputable section

namespace Cert.TileRows

open Idealize.ShloMosaic Idealize.ShloMosaic.ValueIdx

variable {M K N : Nat}

/-- Row `p` of a two-axis array. -/
abbrev rowOf {M K : Nat} (X : (⟨2, ![M, K]⟩ : Shape).Idx → EReal) (p : Fin M) : Fin K → EReal := fun k => X (ix2 p k)
/-- A two-axis array as a matrix. -/
abbrev matOf {K N : Nat} (w : (⟨2, ![K, N]⟩ : Shape).Idx → EReal) : Fin K → Fin N → EReal := fun k q => w (ix2 k q)
/-- A one-row array as a row. -/
abbrev vecOf {N : Nat} (b : (⟨2, ![1, N]⟩ : Shape).Idx → EReal) : Fin N → EReal := fun q => b (ix2 (0 : Fin 1) q)
/-- A one-axis array as a row. -/
abbrev vec1 {N : Nat} (b : (⟨1, ![N]⟩ : Shape).Idx → EReal) : Fin N → EReal := fun q => b (ix1 q)

/-- A vector made a one-row matrix is, as a row, the vector. -/
theorem vecOf_cast {N : Nat} (a : (⟨1, ![N]⟩ : Shape).Idx → EReal) (h : (⟨1, ![N]⟩ : Shape).ShapeCasts ⟨2, ![1, N]⟩) :
    vecOf (shapeCast ⟨2, ![1, N]⟩ a h) = vec1 a := funext fun q => shapeCast_a_1a_apply a h 0 q

/-- A re-laying to the same shape changes nothing. -/
theorem cast_rows {φ : FTy} (X : FVec Ideal ⟨2, ![M, K]⟩ φ) (h : (⟨2, ![M, K]⟩ : Shape).ShapeCasts ⟨2, ![M, K]⟩)
    (xr : Fin M → Fin K → EReal) (hX : ∀ p k, X (ix2 p k) = xr p k) :
    ∀ p k, shapeCast ⟨2, ![M, K]⟩ X h (ix2 p k) = xr p k := fun p k => by
  rw [shapeCast_self]; exact hX p k

/-- A change of float format changes nothing. -/
theorem trunc_rows {φ ψ : FTy} (X : FVec Ideal ⟨2, ![M, K]⟩ φ) (h : ψ.bits < φ.bits)
    (xr : Fin M → Fin K → EReal) (hX : ∀ p k, X (ix2 p k) = xr p k) :
    ∀ p k, (truncf ψ X h : FVec Ideal ⟨2, ![M, K]⟩ ψ) (ix2 p k) = xr p k := fun p k => hX p k

/-- A plain product of a tile of rows with a re-laid `K × N` matrix, into the zero accumulator: row `p` of the result
    is the row `p` of the tile times the matrix. -/
theorem mm_rows {φ₁ φ₂ : FTy} (d : DotDims ⟨2, ![M, K]⟩ ⟨2, ![K, N]⟩ ⟨2, ![M, N]⟩) (hd : Cert.PlainDot.IsPlain d)
    (prec : Option ContractPrecision) (X : FVec Ideal ⟨2, ![M, K]⟩ φ₁) (w : FVec Ideal ⟨2, ![K, N]⟩ φ₂)
    (hw : (⟨2, ![K, N]⟩ : Shape).ShapeCasts ⟨2, ![K, N]⟩)
    (xr : Fin M → Fin K → EReal) (hX : ∀ p k, X (ix2 p k) = xr p k) :
    ∀ p q, matmul d prec X (shapeCast ⟨2, ![K, N]⟩ w hw) (constant ⟨2, ![M, N]⟩ .f32 0x00000000#32) (ix2 p q)
      = ∑ k : Fin K, xr p k * w (ix2 k q) := fun p q => by
  refine (Ideal.matmul_constant_zero_apply d prec X _ (ix2 p q)).trans ?_
  refine (Cert.PlainDot.sum_contr d hd X (shapeCast ⟨2, ![K, N]⟩ w hw) p q).trans ?_
  refine Finset.sum_congr rfl fun k _ => ?_
  rw [hX p k, shapeCast_self]

/-- Adding a one-row bias, re-laid and spread over the rows. -/
theorem bias_rows (Y : FVec Ideal ⟨2, ![M, N]⟩ .f32) (b : FVec Ideal ⟨2, ![1, N]⟩ .f32)
    (hb : (⟨2, ![1, N]⟩ : Shape).ShapeCasts ⟨2, ![1, N]⟩) (hbc : (⟨2, ![1, N]⟩ : Shape).Broadcasts ⟨2, ![M, N]⟩)
    (yr : Fin M → Fin N → EReal) (hY : ∀ p q, Y (ix2 p q) = yr p q) :
    ∀ p q, addf Y (broadcastTo ⟨2, ![M, N]⟩ (shapeCast ⟨2, ![1, N]⟩ b hb) hbc) (ix2 p q) = yr p q + b (ix2 (0 : Fin 1) q) := fun p q => by
  rw [addf_apply, hY p q, broadcastTo_1b_ab_apply, shapeCast_self]

/-- Adding two tiles. -/
theorem add_rows (Y Z : FVec Ideal ⟨2, ![M, N]⟩ .f32) (yr zr : Fin M → Fin N → EReal)
    (hY : ∀ p q, Y (ix2 p q) = yr p q) (hZ : ∀ p q, Z (ix2 p q) = zr p q) :
    ∀ p q, addf Y Z (ix2 p q) = yr p q + zr p q := fun p q => by
  rw [addf_apply, hY p q, hZ p q]

/-- The rectifier against a splat of the zero word. -/
theorem relu_rows (Y : FVec Ideal ⟨2, ![M, N]⟩ .f32) (yr : Fin M → Fin N → EReal) (hY : ∀ p q, Y (ix2 p q) = yr p q) :
    ∀ p q, maximumf Y (broadcast ⟨2, ![M, N]⟩ (Scalar.ofBits (F := Ideal) .f32 0x00000000#32)) (ix2 p q) = max (yr p q) 0 := fun p q => by
  rw [maximumf_apply, hY p q, broadcast_apply]
  show max (yr p q) (Ideal.ofBits .f32 0x00000000#32) = _
  rw [Ideal.ofBits_zero_f32]

/-- The rectifier against another tile known to be zero. -/
theorem relu_rows_of (Y Z : FVec Ideal ⟨2, ![M, N]⟩ .f32) (yr : Fin M → Fin N → EReal) (hY : ∀ p q, Y (ix2 p q) = yr p q)
    (hZ : ∀ p q, Z (ix2 p q) = 0) :
    ∀ p q, maximumf Y Z (ix2 p q) = max (yr p q) 0 := fun p q => by
  rw [maximumf_apply, hY p q, hZ p q]

/-- A splat of the zero word is zero everywhere. -/
theorem zero_rows : ∀ (p : Fin M) (q : Fin N), (broadcast ⟨2, ![M, N]⟩ (Scalar.ofBits (F := Ideal) .f32 0x00000000#32) : FVec Ideal ⟨2, ![M, N]⟩ .f32) (ix2 p q) = 0 := fun p q => by
  rw [broadcast_apply]
  show Ideal.ofBits .f32 0x00000000#32 = _
  rw [Ideal.ofBits_zero_f32]

/-- Columns `o … o + m − 1` cut out of a tile. -/
theorem cols_rows {m : Nat} (o : Nat) (Y : FVec Ideal ⟨2, ![M, N]⟩ .f32) (h : (⟨2, ![M, N]⟩ : Shape).Slices ![0, o] ⟨2, ![M, m]⟩)
    (hle : o + m ≤ N) (yr : Fin M → Fin N → EReal) (hY : ∀ p q, Y (ix2 p q) = yr p q) :
    ∀ (p : Fin M) (j : Fin m), extractStridedSlice ⟨2, ![M, m]⟩ ![0, o] Y h (ix2 p j) = yr p ⟨o + j.val, by omega⟩ := fun p j => by
  rw [slice2_axis1_apply o Y h p j ⟨o + j.val, by omega⟩ rfl]; exact hY p _

/-- Two tiles set side by side along the columns: row `p` of the result is row `p` of the first followed by row `p` of
    the second. -/
theorem concat_rows {A B C : Nat} (hC : A + B = C) (Y : (⟨2, ![M, A]⟩ : Shape).Idx → EReal) (Z : (⟨2, ![M, B]⟩ : Shape).Idx → EReal)
    (h : Shape.Concatenates [(⟨2, ![M, A]⟩ : Shape), ⟨2, ![M, B]⟩] ⟨2, ![M, C]⟩ (1 : Fin 2))
    (yr : Fin M → Fin A → EReal) (zr : Fin M → Fin B → EReal)
    (hY : ∀ p k, Y (ix2 p k) = yr p k) (hZ : ∀ p k, Z (ix2 p k) = zr p k) :
    ∀ (p : Fin M) (j : Fin C), concatenate ⟨2, ![M, C]⟩ (1 : Fin 2) [⟨⟨2, ![M, A]⟩, Y⟩, ⟨⟨2, ![M, B]⟩, Z⟩] h (ix2 p j)
      = Fin.append (yr p) (zr p) (Fin.cast hC.symm j) := by
  intro p j
  by_cases hj : j.val < A
  · have e1 := concatenate_pair_apply_left (1 : Fin 2) Y Z h (ix2 p j) rfl (ix2 p ⟨j.val, hj⟩)
      (fun b => by match b with | ⟨0, _⟩ => rfl | ⟨1, _⟩ => rfl)
    rw [e1, hY]
    have e : Fin.cast hC.symm j = Fin.castAdd B ⟨j.val, hj⟩ := Fin.ext rfl
    rw [e, Fin.append_left]
  · have hjB : j.val - A < B := by have := j.isLt; omega
    have e1 := concatenate_pair_apply_right (1 : Fin 2) Y Z h (ix2 p j) rfl rfl (ix2 p ⟨j.val - A, hjB⟩)
      (fun b hb => by match b with | ⟨0, _⟩ => rfl | ⟨1, _⟩ => exact absurd rfl hb)
      (by show (j.val - A) + A = j.val; omega)
    rw [e1, hZ]
    have e : Fin.cast hC.symm j = Fin.natAdd A ⟨j.val - A, hjB⟩ := Fin.ext (by show j.val = A + (j.val - A); omega)
    rw [e, Fin.append_right]

end Cert.TileRows

end
-- ==== Proof.Tiles.lean ====
/-
  What one grid point computes, read at an entry.

  Each of the five tiled regions loads a block of 5000 rows of node features together with a whole weight matrix and
  its bias rows, and stores one block of 5000 rows. At the extended reals a change of float format is the
  identity and a product into a zero accumulator is the plain sum of products, so entry `(p, q)` of the stored block
  is the dense-layer formula of row `p` of the loaded block.
-/
import proofs.«174598_j50680614093670_1_alg».proof.Proof.Gen.KernelIdeal.Skeleton
import proofs.«174598_j50680614093670_1_alg».proof.Proof.LibRowForms
import proofs.«174598_j50680614093670_1_alg».proof.Proof.LibTileRows

noncomputable section

namespace Cert.KernelIdeal.Tiles

open Cert.KernelIdeal Cert.KernelIdeal.Gen Idealize.ShloMosaic Idealize.ShloMosaic.ValueIdx

theorem plain16 : Cert.PlainDot.IsPlain dot_S5000x16_S16x96_S5000x96_1_0_0_1_n_n := ⟨rfl, rfl, rfl, rfl, rfl, rfl⟩
theorem plain96 : Cert.PlainDot.IsPlain dot_S5000x96_S96x96_S5000x96_1_0_0_1_n_n := ⟨rfl, rfl, rfl, rfl, rfl, rfl⟩
theorem plain4 : Cert.PlainDot.IsPlain dot_S5000x96_S96x4_S5000x4_1_0_0_1_n_n := ⟨rfl, rfl, rfl, rfl, rfl, rfl⟩

/-- The rows of a block after its bias row and the rectifier: `max(x + b, 0)`. -/
theorem act_rows (x : Vec Ideal S5000x96 .f32) (b : Vec Ideal S1x96 .f32) (p : Fin 5000) (k : Fin 96) :
    (truncf .bf16 (maximumf (addf (shapeCast S5000x96 x shapeCasts_S5000x96_S5000x96)
        (broadcastTo S5000x96 (shapeCast S1x96 b shapeCasts_S1x96_S1x96) broadcasts_S1x96_S5000x96))
      (broadcast S5000x96 (Scalar.ofBits (F := Ideal) .f32 0x00000000#32))) bitsLt_bf16_f32 : FVec Ideal S5000x96 .bf16) (ix2 p k)
      = max (x (ix2 p k) + b (ix2 (0 : Fin 1) k)) 0 :=
  Cert.TileRows.relu_rows _ (fun p k => x (ix2 p k) + b (ix2 (0 : Fin 1) k))
    (Cert.TileRows.bias_rows _ b shapeCasts_S1x96_S1x96 broadcasts_S1x96_S5000x96 (fun p k => x (ix2 p k))
      (Cert.TileRows.cast_rows x shapeCasts_S5000x96_S5000x96 (fun p k => x (ix2 p k)) (fun _ _ => rfl))) p k

/-- Region 0, the input projection of a block: `x·w + b`. -/
theorem tile0_apply (x : Vec Ideal S5000x16 .f32) (w : Vec Ideal S16x96 .f32) (b : Vec Ideal S1x96 .f32) (p : Fin 5000) (q : Fin 96) :
    k0_pay1 (F := Ideal) x w b (ix2 p q) = (∑ k : Fin 16, x (ix2 p k) * w (ix2 k q)) + b (ix2 (0 : Fin 1) q) := by
  unfold k0_pay1
  exact Cert.TileRows.bias_rows _ b shapeCasts_S1x96_S1x96 broadcasts_S1x96_S5000x96 (fun p q => ∑ k : Fin 16, x (ix2 p k) * w (ix2 k q))
    (fun p q => Cert.RowForms.mm_apply _ plain16 none _ _ (fun p k => x (ix2 p k)) (fun k q => w (ix2 k q))
      (fun _ _ => rfl) (fun _ _ => rfl) p q) p q

/-- Region 1, a plain projection of a block: `x·w`. -/
theorem tile1_apply (x : Vec Ideal S5000x96 .f32) (w : Vec Ideal S96x96 .f32) (p : Fin 5000) (q : Fin 96) :
    k1_pay1 (F := Ideal) x w (ix2 p q) = ∑ k : Fin 96, x (ix2 p k) * w (ix2 k q) := by
  unfold k1_pay1
  exact Cert.RowForms.mm_apply _ plain96 none _ _ (fun p k => x (ix2 p k)) (fun k q => w (ix2 k q))
    (Cert.TileRows.cast_rows x shapeCasts_S5000x96_S5000x96 (fun p k => x (ix2 p k)) (fun _ _ => rfl))
    (Cert.TileRows.cast_rows w shapeCasts_S96x96_S96x96 (fun k q => w (ix2 k q)) (fun _ _ => rfl)) p q

/-- Region 2, bias and rectifier fused with the next projection: `max(x + b, 0)·w`. -/
theorem tile2_apply (x : Vec Ideal S5000x96 .f32) (b : Vec Ideal S1x96 .f32) (w : Vec Ideal S96x96 .f32) (p : Fin 5000) (q : Fin 96) :
    k2_pay1 (F := Ideal) x b w (ix2 p q) = ∑ k : Fin 96, max (x (ix2 p k) + b (ix2 (0 : Fin 1) k)) 0 * w (ix2 k q) := by
  unfold k2_pay1
  exact Cert.RowForms.mm_apply _ plain96 none _ _ (fun p k => max (x (ix2 p k) + b (ix2 (0 : Fin 1) k)) 0) (fun k q => w (ix2 k q))
    (act_rows x b)
    (Cert.TileRows.cast_rows w shapeCasts_S96x96_S96x96 (fun k q => w (ix2 k q)) (fun _ _ => rfl)) p q

/-- Region 3 computes what region 2 does, one layer later. -/
theorem tile3_apply (x : Vec Ideal S5000x96 .f32) (b : Vec Ideal S1x96 .f32) (w : Vec Ideal S96x96 .f32) (p : Fin 5000) (q : Fin 96) :
    k3_pay1 (F := Ideal) x b w (ix2 p q) = ∑ k : Fin 96, max (x (ix2 p k) + b (ix2 (0 : Fin 1) k)) 0 * w (ix2 k q) := by
  unfold k3_pay1
  exact Cert.RowForms.mm_apply _ plain96 none _ _ (fun p k => max (x (ix2 p k) + b (ix2 (0 : Fin 1) k)) 0) (fun k q => w (ix2 k q))
    (act_rows x b)
    (Cert.TileRows.cast_rows w shapeCasts_S96x96_S96x96 (fun k q => w (ix2 k q)) (fun _ _ => rfl)) p q

/-- Region 4, bias and rectifier fused with the output projection: `max(x + b, 0)·w + b'`. -/
theorem tile4_apply (x : Vec Ideal S5000x96 .f32) (b : Vec Ideal S1x96 .f32) (w : Vec Ideal S96x4 .f32) (b' : Vec Ideal S1x4 .f32)
    (p : Fin 5000) (q : Fin 4) :
    k4_pay1 (F := Ideal) x b w b' (ix2 p q)
      = (∑ k : Fin 96, max (x (ix2 p k) + b (ix2 (0 : Fin 1) k)) 0 * w (ix2 k q)) + b' (ix2 (0 : Fin 1) q) := by
  unfold k4_pay1
  exact Cert.TileRows.bias_rows _ b' shapeCasts_S1x4_S1x4 broadcasts_S1x4_S5000x4
    (fun p q => ∑ k : Fin 96, max (x (ix2 p k) + b (ix2 (0 : Fin 1) k)) 0 * w (ix2 k q))
    (fun p q => Cert.RowForms.mm_apply _ plain4 none _ _ (fun p k => max (x (ix2 p k) + b (ix2 (0 : Fin 1) k)) 0) (fun k q => w (ix2 k q))
      (act_rows x b) (fun _ _ => rfl) p q) p q

end Cert.KernelIdeal.Tiles

end
-- ==== Proof.Region0.lean ====
/-
  Region 0, the input projection, as one whole-array function.

  Grid point `t` of ten loads rows `5000·t … 5000·t + 4999` of the node features, the whole weight matrix and the
  whole bias row, and writes back rows `5000·t …` of the result. Entry `(p, q)` of what it writes is the dense-layer
  formula of row `5000·t + p` of the features: the same entry of `dense` of the whole arrays. The ten blocks tile the
  50000 rows, so after the region the result array IS `dense` of the arrays the region found.
-/
import proofs.«174598_j50680614093670_1_alg».proof.Proof.Gen.KernelIdeal.Frame
import proofs.«174598_j50680614093670_1_alg».proof.Proof.Tiles
import proofs.«174598_j50680614093670_1_alg».proof.Proof.Spec

set_option maxRecDepth 16384

noncomputable section

namespace Cert.KernelIdeal.Region0

open Cert.KernelIdeal Cert.KernelIdeal.Gen Idealize.ShloMosaic Idealize.ShloMosaic.TcCoe Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the feature window and the result window move with the point along the rows, the
    parameter windows stay. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A row of the loaded block of features is the row `5000·t + p` of the array. -/
theorem read0 (c : Dev nD) (t : Fin cfg0.N) (p : Fin 5000) (k : Fin 16) (hP : t.val * 5000 + p.val < 50000) :
    iblk0 V c 0 t (ix2 p k) = V c main_arg0 (ix2 (⟨t.val * 5000 + p.val, hP⟩ : Fin 50000) k) := by
  obtain ⟨e00, e01, e10, e11, e20, e21, e30, e31⟩ := idx t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 16 + 1 * k.val = k.val; omega

/-- A window that stays: its block is the whole array. -/
theorem read1 (c : Dev nD) (t : Fin cfg0.N) (p : Fin 16) (k : Fin 96) :
    iblk0 V c 1 t (ix2 p k) = V c main_arg2 (ix2 p k) := by
  obtain ⟨e00, e01, e10, e11, e20, e21, e30, e31⟩ := idx t
  show V c main_arg2 (((cfg0.win 1).blk t).view.emb (ix2 p k)) = _
  refine congrArg (V c main_arg2) (funext fun a => Fin.ext ?_)
  match a with
  | ⟨0, _⟩ => show win0_1.index t (0 : Fin 2) * 16 + 1 * p.val = p.val; omega
  | ⟨1, _⟩ => show win0_1.index t (1 : Fin 2) * 96 + 1 * k.val = k.val; omega

/-- A window that stays: its block is the whole array. -/
theorem read2 (c : Dev nD) (t : Fin cfg0.N) (p : Fin 1) (k : Fin 96) :
    iblk0 V c 2 t (ix2 p k) = V c main_v30 (ix2 p k) := by
  obtain ⟨e00, e01, e10, e11, e20, e21, e30, e31⟩ := idx t
  show V c main_v30 (((cfg0.win 2).blk t).view.emb (ix2 p k)) = _
  refine congrArg (V c main_v30) (funext fun a => Fin.ext ?_)
  match a with
  | ⟨0, _⟩ => show win0_2.index t (0 : Fin 2) * 1 + 1 * p.val = p.val; omega
  | ⟨1, _⟩ => show win0_2.index t (1 : Fin 2) * 96 + 1 * k.val = k.val; omega

/-- WHAT POINT `t` WRITES BACK is block `t` of `dense` of the arrays as the region finds them. -/
theorem flushed (c : Dev nD) (t : Fin cfg0.N) :
    (dat0 V c).flushed 3 t
      = ((cfg0.win 3).blk t).view.read (Elt Ideal) (Cert.Gcn.dense (V c main_arg0) (V c main_arg2) (V c main_v30)) := by
  show (cfg0.win 3).cut (grid0.coords t) ((dat0 V c).after 3 t) = _
  rw [after0_3]
  unfold out0_3
  rw [View.canon_unit_zero hz]
  simp only [View.ld_unit_zero (S := S5000x16) hz, View.ld_unit_zero (S := S16x96) hz, View.ld_unit_zero (S := S1x96) hz]
  obtain ⟨e00, e01, e10, e11, e20, e21, e30, e31⟩ := idx t
  have ht : t.val < 10 := lt_of_lt_of_eq t.isLt N_0
  funext j
  have hj0 : (j 0).val < 5000 := (j 0).isLt
  have hj1 : (j 1).val < 96 := (j 1).isLt
  show k0_pay1 (F := Ideal) (iblk0 V c 0 t) (iblk0 V c 1 t) (iblk0 V c 2 t) j
    = Cert.Gcn.dense (V c main_arg0) (V c main_arg2) (V c main_v30) (((cfg0.win 3).blk t).view.emb j)
  have ej : j = ix2 (⟨(j 0).val, hj0⟩ : Fin 5000) (⟨(j 1).val, hj1⟩ : Fin 96) := funext fun a => Fin.ext (by
    match a with
    | ⟨0, _⟩ => rfl
    | ⟨1, _⟩ => rfl)
  have hP : t.val * 5000 + (j 0).val < 50000 := by omega
  have eo : ((cfg0.win 3).blk t).view.emb j
      = ix2 (⟨t.val * 5000 + (j 0).val, hP⟩ : Fin 50000) (⟨(j 1).val, hj1⟩ : Fin 96) := funext fun a => Fin.ext (by
    match a with
    | ⟨0, _⟩ => show win0_3.index t (0 : Fin 2) * 5000 + 1 * (j 0).val = t.val * 5000 + (j 0).val; omega
    | ⟨1, _⟩ => show win0_3.index t (1 : Fin 2) * 96 + 1 * (j 1).val = (j 1).val; omega)
  rw [eo]
  refine (congrArg (k0_pay1 (F := Ideal) (iblk0 V c 0 t) (iblk0 V c 1 t) (iblk0 V c 2 t)) ej).trans ?_
  refine (Cert.KernelIdeal.Tiles.tile0_apply (iblk0 V c 0 t) (iblk0 V c 1 t) (iblk0 V c 2 t) _ _).trans ?_
  refine Eq.trans ?_ (Cert.Gcn.dense_apply (V c main_arg0) (V c main_arg2) (V c main_v30) _ _).symm
  rw [read2 V c t 0 _]
  refine congrArg (· + _) (Finset.sum_congr rfl fun k _ => ?_)
  rw [read0 V c t ⟨(j 0).val, hj0⟩ k hP, read1 V c t k _]

/-- An index of the result array is in point `t`'s block iff its row is one of the block's 5000. -/
theorem mem_blk (t : Fin cfg0.N) (i : S50000x96.Idx) :
    i ∈ ((cfg0.win 3).blk t).view.set ↔ ∀ a : Fin 2, win0_3.index t a * S5000x96.size a ≤ (i a).val ∧ (i a).val < win0_3.index t a * S5000x96.size a + S5000x96.size a := by
  show i ∈ ((View.whole main_v31).slice (win0_3.rect t)).set ↔ _
  rw [View.set_slice_whole, Rect.mem_set_unit]
  exact Iff.rfl

/-- Every row of the result lies in the block of the point `row / 5000`. -/
theorem cover (i : S50000x96.Idx) : ∃ t : Fin cfg0.N, (cfg0.win 3).flush t = true ∧ i ∈ ((cfg0.win 3).blk t).view.set := by
  have hi0 : (i 0).val < 50000 := (i 0).isLt
  have hi1 : (i 1).val < 96 := (i 1).isLt
  let t : Fin cfg0.N := ⟨(i 0).val / 5000, lt_of_lt_of_eq (by omega : (i 0).val / 5000 < 10) N_0.symm⟩
  obtain ⟨e00, e01, e10, e11, e20, e21, e30, e31⟩ := idx t
  have tv : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 96 ≤ (i 1).val ∧ (i 1).val < win0_3.index t (1 : Fin 2) * 96 + 96; omega

/-- THE ARRAY after the region: `dense` of the arrays the region found. -/
theorem final (c : Dev nD) :
    (dat0 V c).arrAt 3 cfg0.N = Cert.Gcn.dense (V c main_arg0) (V c main_arg2) (V c main_v30) :=
  (dat0 V c).arrAt_eq_of_cover 3 _ (fun t _ => flushed V c t) cover

end Cert.KernelIdeal.Region0

end
-- ==== Proof.Region1.lean ====
/-
  Region 1, layer 0's projection, as one whole-array function.

  Grid point `t` of ten loads rows `5000·t …` of the features and the whole weight matrix and writes back the same rows
  of their product: entry `(p, q)` is the sum of products along row `5000·t + p`, the same entry of `project` of the whole
  arrays. The ten blocks tile the 50000 rows.
-/
import proofs.«174598_j50680614093670_1_alg».proof.Proof.Gen.KernelIdeal.Frame
import proofs.«174598_j50680614093670_1_alg».proof.Proof.Tiles
import proofs.«174598_j50680614093670_1_alg».proof.Proof.Spec

set_option maxRecDepth 16384

noncomputable section

namespace Cert.KernelIdeal.Region1

open Cert.KernelIdeal Cert.KernelIdeal.Gen Idealize.ShloMosaic Idealize.ShloMosaic.TcCoe Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the feature window and the result window move with the point along the rows, the
    parameter windows stay. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A row of the loaded block of features is the row `5000·t + p` of the array. -/
theorem read0 (c : Dev nD) (t : Fin cfg1.N) (p : Fin 5000) (k : Fin 96) (hP : t.val * 5000 + p.val < 50000) :
    iblk1 V c 0 t (ix2 p k) = V c main_v31 (ix2 (⟨t.val * 5000 + p.val, hP⟩ : Fin 50000) k) := by
  obtain ⟨e00, e01, e10, e11, e20, e21⟩ := idx t
  show V c main_v31 (((cfg1.win 0).blk t).view.emb (ix2 p k)) = _
  refine congrArg (V c main_v31) (funext fun a => Fin.ext ?_)
  match a with
  | ⟨0, _⟩ => show win1_0.index t (0 : Fin 2) * 5000 + 1 * p.val = t.val * 5000 + p.val; omega
  | ⟨1, _⟩ => show win1_0.index t (1 : Fin 2) * 96 + 1 * k.val = k.val; omega

/-- A window that stays: its block is the whole array. -/
theorem read1 (c : Dev nD) (t : Fin cfg1.N) (p : Fin 96) (k : Fin 96) :
    iblk1 V c 1 t (ix2 p k) = V c main_v33 (ix2 p k) := by
  obtain ⟨e00, e01, e10, e11, e20, e21⟩ := idx t
  show V c main_v33 (((cfg1.win 1).blk t).view.emb (ix2 p k)) = _
  refine congrArg (V c main_v33) (funext fun a => Fin.ext ?_)
  match a with
  | ⟨0, _⟩ => show win1_1.index t (0 : Fin 2) * 96 + 1 * p.val = p.val; omega
  | ⟨1, _⟩ => show win1_1.index t (1 : Fin 2) * 96 + 1 * k.val = k.val; omega

/-- WHAT POINT `t` WRITES BACK is block `t` of `project` of the arrays as the region finds them. -/
theorem flushed (c : Dev nD) (t : Fin cfg1.N) :
    (dat1 V c).flushed 2 t
      = ((cfg1.win 2).blk t).view.read (Elt Ideal) (Cert.Gcn.project (V c main_v31) (V c main_v33)) := by
  show (cfg1.win 2).cut (grid1.coords t) ((dat1 V c).after 2 t) = _
  rw [after1_2]
  unfold out1_2
  rw [View.canon_unit_zero hz]
  simp only [View.ld_unit_zero (S := S5000x96) hz, View.ld_unit_zero (S := S96x96) hz]
  obtain ⟨e00, e01, e10, e11, e20, e21⟩ := idx t
  have ht : t.val < 10 := lt_of_lt_of_eq t.isLt N_1
  funext j
  have hj0 : (j 0).val < 5000 := (j 0).isLt
  have hj1 : (j 1).val < 96 := (j 1).isLt
  show k1_pay1 (F := Ideal) (iblk1 V c 0 t) (iblk1 V c 1 t) j
    = Cert.Gcn.project (V c main_v31) (V c main_v33) (((cfg1.win 2).blk t).view.emb j)
  have ej : j = ix2 (⟨(j 0).val, hj0⟩ : Fin 5000) (⟨(j 1).val, hj1⟩ : Fin 96) := funext fun a => Fin.ext (by
    match a with
    | ⟨0, _⟩ => rfl
    | ⟨1, _⟩ => rfl)
  have hP : t.val * 5000 + (j 0).val < 50000 := by omega
  have eo : ((cfg1.win 2).blk t).view.emb j
      = ix2 (⟨t.val * 5000 + (j 0).val, hP⟩ : Fin 50000) (⟨(j 1).val, hj1⟩ : Fin 96) := funext fun a => Fin.ext (by
    match a with
    | ⟨0, _⟩ => show win1_2.index t (0 : Fin 2) * 5000 + 1 * (j 0).val = t.val * 5000 + (j 0).val; omega
    | ⟨1, _⟩ => show win1_2.index t (1 : Fin 2) * 96 + 1 * (j 1).val = (j 1).val; omega)
  rw [eo]
  refine (congrArg (k1_pay1 (F := Ideal) (iblk1 V c 0 t) (iblk1 V c 1 t)) ej).trans ?_
  refine (Cert.KernelIdeal.Tiles.tile1_apply (iblk1 V c 0 t) (iblk1 V c 1 t) _ _).trans ?_
  refine Eq.trans ?_ (Cert.Gcn.project_apply (V c main_v31) (V c main_v33) _ _).symm
  refine Finset.sum_congr rfl fun k _ => ?_
  rw [read0 V c t ⟨(j 0).val, hj0⟩ k hP, read1 V c t k _]

/-- An index of the result array is in point `t`'s block iff its row is one of the block's 5000. -/
theorem mem_blk (t : Fin cfg1.N) (i : S50000x96.Idx) :
    i ∈ ((cfg1.win 2).blk t).view.set ↔ ∀ a : Fin 2, win1_2.index t a * S5000x96.size a ≤ (i a).val ∧ (i a).val < win1_2.index t a * S5000x96.size a + S5000x96.size a := by
  show i ∈ ((View.whole main_v34).slice (win1_2.rect t)).set ↔ _
  rw [View.set_slice_whole, Rect.mem_set_unit]
  exact Iff.rfl

/-- Every row of the result lies in the block of the point `row / 5000`. -/
theorem cover (i : S50000x96.Idx) : ∃ t : Fin cfg1.N, (cfg1.win 2).flush t = true ∧ i ∈ ((cfg1.win 2).blk t).view.set := by
  have hi0 : (i 0).val < 50000 := (i 0).isLt
  have hi1 : (i 1).val < 96 := (i 1).isLt
  let t : Fin cfg1.N := ⟨(i 0).val / 5000, lt_of_lt_of_eq (by omega : (i 0).val / 5000 < 10) N_1.symm⟩
  obtain ⟨e00, e01, e10, e11, e20, e21⟩ := idx t
  have tv : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 96 ≤ (i 1).val ∧ (i 1).val < win1_2.index t (1 : Fin 2) * 96 + 96; omega

/-- THE ARRAY after the region: `project` of the arrays the region found. -/
theorem final (c : Dev nD) :
    (dat1 V c).arrAt 2 cfg1.N = Cert.Gcn.project (V c main_v31) (V c main_v33) :=
  (dat1 V c).arrAt_eq_of_cover 2 _ (fun t _ => flushed V c t) cover

end Cert.KernelIdeal.Region1

end
-- ==== Proof.Region2.lean ====
/-
  Region 2: a layer's bias and rectifier fused with the next projection, as one whole-array function.

  Grid point `t` of ten loads rows `5000·t …` of the aggregated messages, the bias row and the next layer's weights, and
  writes back the same rows of `max(A + b, 0)·W`: entry `(p, q)` depends on row `5000·t + p` of the messages only, and is the
  same entry of `layer` of the whole arrays. The ten blocks tile the 50000 rows.
-/
import proofs.«174598_j50680614093670_1_alg».proof.Proof.Gen.KernelIdeal.Frame
import proofs.«174598_j50680614093670_1_alg».proof.Proof.Tiles
import proofs.«174598_j50680614093670_1_alg».proof.Proof.Spec

set_option maxRecDepth 16384

noncomputable section

namespace Cert.KernelIdeal.Region2

open Cert.KernelIdeal Cert.KernelIdeal.Gen Idealize.ShloMosaic Idealize.ShloMosaic.TcCoe Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the feature window and the result window move with the point along the rows, the
    parameter windows stay. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A row of the loaded block of features is the row `5000·t + p` of the array. -/
theorem read0 (c : Dev nD) (t : Fin cfg2.N) (p : Fin 5000) (k : Fin 96) (hP : t.val * 5000 + p.val < 50000) :
    iblk2 V c 0 t (ix2 p k) = V c main_v47 (ix2 (⟨t.val * 5000 + p.val, hP⟩ : Fin 50000) k) := by
  obtain ⟨e00, e01, e10, e11, e20, e21, e30, e31⟩ := idx t
  show V c main_v47 (((cfg2.win 0).blk t).view.emb (ix2 p k)) = _
  refine congrArg (V c main_v47) (funext fun a => Fin.ext ?_)
  match a with
  | ⟨0, _⟩ => show win2_0.index t (0 : Fin 2) * 5000 + 1 * p.val = t.val * 5000 + p.val; omega
  | ⟨1, _⟩ => show win2_0.index t (1 : Fin 2) * 96 + 1 * k.val = k.val; omega

/-- A window that stays: its block is the whole array. -/
theorem read1 (c : Dev nD) (t : Fin cfg2.N) (p : Fin 1) (k : Fin 96) :
    iblk2 V c 1 t (ix2 p k) = V c main_v52 (ix2 p k) := by
  obtain ⟨e00, e01, e10, e11, e20, e21, e30, e31⟩ := idx t
  show V c main_v52 (((cfg2.win 1).blk t).view.emb (ix2 p k)) = _
  refine congrArg (V c main_v52) (funext fun a => Fin.ext ?_)
  match a with
  | ⟨0, _⟩ => show win2_1.index t (0 : Fin 2) * 1 + 1 * p.val = p.val; omega
  | ⟨1, _⟩ => show win2_1.index t (1 : Fin 2) * 96 + 1 * k.val = k.val; omega

/-- A window that stays: its block is the whole array. -/
theorem read2 (c : Dev nD) (t : Fin cfg2.N) (p : Fin 96) (k : Fin 96) :
    iblk2 V c 2 t (ix2 p k) = V c main_v49 (ix2 p k) := by
  obtain ⟨e00, e01, e10, e11, e20, e21, e30, e31⟩ := idx t
  show V c main_v49 (((cfg2.win 2).blk t).view.emb (ix2 p k)) = _
  refine congrArg (V c main_v49) (funext fun a => Fin.ext ?_)
  match a with
  | ⟨0, _⟩ => show win2_2.index t (0 : Fin 2) * 96 + 1 * p.val = p.val; omega
  | ⟨1, _⟩ => show win2_2.index t (1 : Fin 2) * 96 + 1 * k.val = k.val; omega

/-- WHAT POINT `t` WRITES BACK is block `t` of `layer` of the arrays as the region finds them. -/
theorem flushed (c : Dev nD) (t : Fin cfg2.N) :
    (dat2 V c).flushed 3 t
      = ((cfg2.win 3).blk t).view.read (Elt Ideal) (Cert.Gcn.layer (V c main_v47) (V c main_v52) (V c main_v49)) := by
  show (cfg2.win 3).cut (grid2.coords t) ((dat2 V c).after 3 t) = _
  rw [after2_3]
  unfold out2_3
  rw [View.canon_unit_zero hz]
  simp only [View.ld_unit_zero (S := S5000x96) hz, View.ld_unit_zero (S := S1x96) hz, View.ld_unit_zero (S := S96x96) hz]
  obtain ⟨e00, e01, e10, e11, e20, e21, e30, e31⟩ := idx t
  have ht : t.val < 10 := lt_of_lt_of_eq t.isLt N_2
  funext j
  have hj0 : (j 0).val < 5000 := (j 0).isLt
  have hj1 : (j 1).val < 96 := (j 1).isLt
  show k2_pay1 (F := Ideal) (iblk2 V c 0 t) (iblk2 V c 1 t) (iblk2 V c 2 t) j
    = Cert.Gcn.layer (V c main_v47) (V c main_v52) (V c main_v49) (((cfg2.win 3).blk t).view.emb j)
  have ej : j = ix2 (⟨(j 0).val, hj0⟩ : Fin 5000) (⟨(j 1).val, hj1⟩ : Fin 96) := funext fun a => Fin.ext (by
    match a with
    | ⟨0, _⟩ => rfl
    | ⟨1, _⟩ => rfl)
  have hP : t.val * 5000 + (j 0).val < 50000 := by omega
  have eo : ((cfg2.win 3).blk t).view.emb j
      = ix2 (⟨t.val * 5000 + (j 0).val, hP⟩ : Fin 50000) (⟨(j 1).val, hj1⟩ : Fin 96) := funext fun a => Fin.ext (by
    match a with
    | ⟨0, _⟩ => show win2_3.index t (0 : Fin 2) * 5000 + 1 * (j 0).val = t.val * 5000 + (j 0).val; omega
    | ⟨1, _⟩ => show win2_3.index t (1 : Fin 2) * 96 + 1 * (j 1).val = (j 1).val; omega)
  rw [eo]
  refine (congrArg (k2_pay1 (F := Ideal) (iblk2 V c 0 t) (iblk2 V c 1 t) (iblk2 V c 2 t)) ej).trans ?_
  refine (Cert.KernelIdeal.Tiles.tile2_apply (iblk2 V c 0 t) (iblk2 V c 1 t) (iblk2 V c 2 t) _ _).trans ?_
  refine Eq.trans ?_ (Cert.Gcn.layer_apply (V c main_v47) (V c main_v52) (V c main_v49) _ _).symm
  refine Finset.sum_congr rfl fun k _ => ?_
  rw [read0 V c t ⟨(j 0).val, hj0⟩ k hP, read1 V c t 0 k, read2 V c t k _]

/-- An index of the result array is in point `t`'s block iff its row is one of the block's 5000. -/
theorem mem_blk (t : Fin cfg2.N) (i : S50000x96.Idx) :
    i ∈ ((cfg2.win 3).blk t).view.set ↔ ∀ a : Fin 2, win2_3.index t a * S5000x96.size a ≤ (i a).val ∧ (i a).val < win2_3.index t a * S5000x96.size a + S5000x96.size a := by
  show i ∈ ((View.whole main_v53).slice (win2_3.rect t)).set ↔ _
  rw [View.set_slice_whole, Rect.mem_set_unit]
  exact Iff.rfl

/-- Every row of the result lies in the block of the point `row / 5000`. -/
theorem cover (i : S50000x96.Idx) : ∃ t : Fin cfg2.N, (cfg2.win 3).flush t = true ∧ i ∈ ((cfg2.win 3).blk t).view.set := by
  have hi0 : (i 0).val < 50000 := (i 0).isLt
  have hi1 : (i 1).val < 96 := (i 1).isLt
  let t : Fin cfg2.N := ⟨(i 0).val / 5000, lt_of_lt_of_eq (by omega : (i 0).val / 5000 < 10) N_2.symm⟩
  obtain ⟨e00, e01, e10, e11, e20, e21, e30, e31⟩ := idx t
  have tv : t.val = (i 0).val / 5000 := rfl
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 96 ≤ (i 1).val ∧ (i 1).val < win2_3.index t (1 : Fin 2) * 96 + 96; omega

/-- THE ARRAY after the region: `layer` of the arrays the region found. -/
theorem final (c : Dev nD) :
    (dat2 V c).arrAt 3 cfg2.N = Cert.Gcn.layer (V c main_v47) (V c main_v52) (V c main_v49) :=
  (dat2 V c).arrAt_eq_of_cover 3 _ (fun t _ => flushed V c t) cover

end Cert.KernelIdeal.Region2

end
-- ==== Proof.Region3.lean ====
/-
  Region 3: the second layer's bias and rectifier fused with the third projection, as one whole-array function.

  The same computation as the region before it, one layer later: grid point `t` of ten writes back rows `5000·t …` of
  `max(A + b, 0)·W`, and the ten blocks tile the 50000 rows.
-/
import proofs.«174598_j50680614093670_1_alg».proof.Proof.Gen.KernelIdeal.Frame
import proofs.«174598_j50680614093670_1_alg».proof.Proof.Tiles
import proofs.«174598_j50680614093670_1_alg».proof.Proof.Spec

set_option maxRecDepth 16384

noncomputable section

namespace Cert.KernelIdeal.Region3

open Cert.KernelIdeal Cert.KernelIdeal.Gen Idealize.ShloMosaic Idealize.ShloMosaic.TcCoe Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the feature window and the result window move with the point along the rows, the
    parameter windows stay. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- A row of the loaded block of features is the row `5000·t + p` of the array. -/
theorem read0 (c : Dev nD) (t : Fin cfg3.N) (p : Fin 5000) (k : Fin 96) (hP : t.val * 5000 + p.val < 50000) :
    iblk3 V c 0 t (ix2 p k) = V c main_v66 (ix2 (⟨t.val * 5000 + p.val, hP⟩ : Fin 50000) k) := by
  obtain ⟨e00, e01, e10, e11, e20, e21, e30, e31⟩ := idx t
  show V c main_v66 (((cfg3.win 0).blk t).view.emb (ix2 p k)) = _
  refine congrArg (V c main_v66) (funext fun a => Fin.ext ?_)
  match a with
  | ⟨0, _⟩ => show win3_0.index t (0 : Fin 2) * 5000 + 1 * p.val = t.val * 5000 + p.val; omega
  | ⟨1, _⟩ => show win3_0.index t (1 : Fin 2) * 96 + 1 * k.val = k.val; omega

/-- A window that stays: its block is the whole array. -/
theorem read1 (c : Dev nD) (t : Fin cfg3.N) (p : Fin 1) (k : Fin 96) :
    iblk3 V c 1 t (ix2 p k) = V c main_v71 (ix2 p k) := by
  obtain ⟨e00, e01, e10, e11, e20, e21, e30, e31⟩ := idx t
  show V c main_v71 (((cfg3.win 1).blk t).view.emb (ix2 p k)) = _
  refine congrArg (V c main_v71) (funext fun a => Fin.ext ?_)
  match a with
  | ⟨0, _⟩ => show win3_1.index t (0 : Fin 2) * 1 + 1 * p.val = p.val; omega
  | ⟨1, _⟩ => show win3_1.index t (1 : Fin 2) * 96 + 1 * k.val = k.val; omega

/-- A window that stays: its block is the whole array. -/
theorem read2 (c : Dev nD) (t : Fin cfg3.N) (p : Fin 96) (k : Fin 96) :
    iblk3 V c 2 t (ix2 p k) = V c main_v68 (ix2 p k) := by
  obtain ⟨e00, e01, e10, e11, e20, e21, e30, e31⟩ := idx t
  show V c main_v68 (((cfg3.win 2).blk t).view.emb (ix2 p k)) = _
  refine congrArg (V c main_v68) (funext fun a => Fin.ext ?_)
  match a with
  | ⟨0, _⟩ => show win3_2.index t (0 : Fin 2) * 96 + 1 * p.val = p.val; omega
  | ⟨1, _⟩ => show win3_2.index t (1 : Fin 2) * 96 + 1 * k.val = k.val; omega

/-- WHAT POINT `t` WRITES BACK is block `t` of `layer` of the arrays as the region finds them. -/
theorem flushed (c : Dev nD) (t : Fin cfg3.N) :
    (dat3 V c).flushed 3 t
      = ((cfg3.win 3).blk t).view.read (Elt Ideal) (Cert.Gcn.layer (V c main_v66) (V c main_v71) (V c main_v68)) := by
  show (cfg3.win 3).cut (grid3.coords t) ((dat3 V c).after 3 t) = _
  rw [after3_3]
  unfold out3_3
  rw [View.canon_unit_zero hz]
  simp only [View.ld_unit_zero (S := S5000x96) hz, View.ld_unit_zero (S := S1x96) hz, View.ld_unit_zero (S := S96x96) hz]
  obtain ⟨e00, e01, e10, e11, e20, e21, e30, e31⟩ := idx t
  have ht : t.val < 10 := lt_of_lt_of_eq t.isLt N_3
  funext j
  have hj0 : (j 0).val < 5000 := (j 0).isLt
  have hj1 : (j 1).val < 96 := (j 1).isLt
  show k3_pay1 (F := Ideal) (iblk3 V c 0 t) (iblk3 V c 1 t) (iblk3 V c 2 t) j
    = Cert.Gcn.layer (V c main_v66) (V c main_v71) (V c main_v68) (((cfg3.win 3).blk t).view.emb j)
  have ej : j = ix2 (⟨(j 0).val, hj0⟩ : Fin 5000) (⟨(j 1).val, hj1⟩ : Fin 96) := funext fun a => Fin.ext (by
    match a with
    | ⟨0, _⟩ => rfl
    | ⟨1, _⟩ => rfl)
  have hP : t.val * 5000 + (j 0).val < 50000 := by omega
  have eo : ((cfg3.win 3).blk t).view.emb j
      = ix2 (⟨t.val * 5000 + (j 0).val, hP⟩ : Fin 50000) (⟨(j 1).val, hj1⟩ : Fin 96) := funext fun a => Fin.ext (by
    match a with
    | ⟨0, _⟩ => show win3_3.index t (0 : Fin 2) * 5000 + 1 * (j 0).val = t.val * 5000 + (j 0).val; omega
    | ⟨1, _⟩ => show win3_3.index t (1 : Fin 2) * 96 + 1 * (j 1).val = (j 1).val; omega)
  rw [eo]
  refine (congrArg (k3_pay1 (F := Ideal) (iblk3 V c 0 t) (iblk3 V c 1 t) (iblk3 V c 2 t)) ej).trans ?_
  refine (Cert.KernelIdeal.Tiles.tile3_apply (iblk3 V c 0 t) (iblk3 V c 1 t) (iblk3 V c 2 t) _ _).trans ?_
  refine Eq.trans ?_ (Cert.Gcn.layer_apply (V c main_v66) (V c main_v71) (V c main_v68) _ _).symm
  refine Finset.sum_congr rfl fun k _ => ?_
  rw [read0 V c t ⟨(j 0).val, hj0⟩ k hP, read1 V c t 0 k, read2 V c t k _]

/-- An index of the result array is in point `t`'s block iff its row is one of the block's 5000. -/
theorem mem_blk (t : Fin cfg3.N) (i : S50000x96.Idx) :
    i ∈ ((cfg3.win 3).blk t).view.set ↔ ∀ a : Fin 2, win3_3.index t a * S5000x96.size a ≤ (i a).val ∧ (i a).val < win3_3.index t a * S5000x96.size a + S5000x96.size a := by
  show i ∈ ((View.whole main_v72).slice (win3_3.rect t)).set ↔ _
  rw [View.set_slice_whole, Rect.mem_set_unit]
  exact Iff.rfl

/-- Every row of the result lies in the block of the point `row / 5000`. -/
theorem cover (i : S50000x96.Idx) : ∃ t : Fin cfg3.N, (cfg3.win 3).flush t = true ∧ i ∈ ((cfg3.win 3).blk t).view.set := by
  have hi0 : (i 0).val < 50000 := (i 0).isLt
  have hi1 : (i 1).val < 96 := (i 1).isLt
  let t : Fin cfg3.N := ⟨(i 0).val / 5000, lt_of_lt_of_eq (by omega : (i 0).val / 5000 < 10) N_3.symm⟩
  obtain ⟨e00, e01, e10, e11, e20, e21, e30, e31⟩ := idx t
  have tv : t.val = (i 0).val / 5000 := rfl
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 96 ≤ (i 1).val ∧ (i 1).val < win3_3.index t (1 : Fin 2) * 96 + 96; omega

/-- THE ARRAY after the region: `layer` of the arrays the region found. -/
theorem final (c : Dev nD) :
    (dat3 V c).arrAt 3 cfg3.N = Cert.Gcn.layer (V c main_v66) (V c main_v71) (V c main_v68) :=
  (dat3 V c).arrAt_eq_of_cover 3 _ (fun t _ => flushed V c t) cover

end Cert.KernelIdeal.Region3

end
-- ==== Proof.Region4.lean ====
/-
  Region 4: the last layer's bias and rectifier fused with the output projection, as one whole-array function.

  Grid point `t` of ten loads rows `5000·t …` of the aggregated messages, the bias row, the output weights and the output
  bias row, and writes back the same rows of `max(A + b, 0)·W + b'`; the ten blocks tile the 50000 rows.
-/
import proofs.«174598_j50680614093670_1_alg».proof.Proof.Gen.KernelIdeal.Frame
import proofs.«174598_j50680614093670_1_alg».proof.Proof.Tiles
import proofs.«174598_j50680614093670_1_alg».proof.Proof.Spec

set_option maxRecDepth 16384

noncomputable section

namespace Cert.KernelIdeal.Region4

open Cert.KernelIdeal Cert.KernelIdeal.Gen Idealize.ShloMosaic Idealize.ShloMosaic.TcCoe Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the feature window and the result window move with the point along the rows, the
    parameter windows stay. -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- A row of the loaded block of features is the row `5000·t + p` of the array. -/
theorem read0 (c : Dev nD) (t : Fin cfg4.N) (p : Fin 5000) (k : Fin 96) (hP : t.val * 5000 + p.val < 50000) :
    iblk4 V c 0 t (ix2 p k) = V c main_v85 (ix2 (⟨t.val * 5000 + p.val, hP⟩ : Fin 50000) k) := by
  obtain ⟨e00, e01, e10, e11, e20, e21, e30, e31, e40, e41⟩ := idx t
  show V c main_v85 (((cfg4.win 0).blk t).view.emb (ix2 p k)) = _
  refine congrArg (V c main_v85) (funext fun a => Fin.ext ?_)
  match a with
  | ⟨0, _⟩ => show win4_0.index t (0 : Fin 2) * 5000 + 1 * p.val = t.val * 5000 + p.val; omega
  | ⟨1, _⟩ => show win4_0.index t (1 : Fin 2) * 96 + 1 * k.val = k.val; omega

/-- A window that stays: its block is the whole array. -/
theorem read1 (c : Dev nD) (t : Fin cfg4.N) (p : Fin 1) (k : Fin 96) :
    iblk4 V c 1 t (ix2 p k) = V c main_v88 (ix2 p k) := by
  obtain ⟨e00, e01, e10, e11, e20, e21, e30, e31, e40, e41⟩ := idx t
  show V c main_v88 (((cfg4.win 1).blk t).view.emb (ix2 p k)) = _
  refine congrArg (V c main_v88) (funext fun a => Fin.ext ?_)
  match a with
  | ⟨0, _⟩ => show win4_1.index t (0 : Fin 2) * 1 + 1 * p.val = p.val; omega
  | ⟨1, _⟩ => show win4_1.index t (1 : Fin 2) * 96 + 1 * k.val = k.val; omega

/-- A window that stays: its block is the whole array. -/
theorem read2 (c : Dev nD) (t : Fin cfg4.N) (p : Fin 96) (k : Fin 4) :
    iblk4 V c 2 t (ix2 p k) = V c main_arg6 (ix2 p k) := by
  obtain ⟨e00, e01, e10, e11, e20, e21, e30, e31, e40, e41⟩ := idx t
  show V c main_arg6 (((cfg4.win 2).blk t).view.emb (ix2 p k)) = _
  refine congrArg (V c main_arg6) (funext fun a => Fin.ext ?_)
  match a with
  | ⟨0, _⟩ => show win4_2.index t (0 : Fin 2) * 96 + 1 * p.val = p.val; omega
  | ⟨1, _⟩ => show win4_2.index t (1 : Fin 2) * 4 + 1 * k.val = k.val; omega

/-- A window that stays: its block is the whole array. -/
theorem read3 (c : Dev nD) (t : Fin cfg4.N) (p : Fin 1) (k : Fin 4) :
    iblk4 V c 3 t (ix2 p k) = V c main_v89 (ix2 p k) := by
  obtain ⟨e00, e01, e10, e11, e20, e21, e30, e31, e40, e41⟩ := idx t
  show V c main_v89 (((cfg4.win 3).blk t).view.emb (ix2 p k)) = _
  refine congrArg (V c main_v89) (funext fun a => Fin.ext ?_)
  match a with
  | ⟨0, _⟩ => show win4_3.index t (0 : Fin 2) * 1 + 1 * p.val = p.val; omega
  | ⟨1, _⟩ => show win4_3.index t (1 : Fin 2) * 4 + 1 * k.val = k.val; omega

/-- WHAT POINT `t` WRITES BACK is block `t` of `head` of the arrays as the region finds them. -/
theorem flushed (c : Dev nD) (t : Fin cfg4.N) :
    (dat4 V c).flushed 4 t
      = ((cfg4.win 4).blk t).view.read (Elt Ideal) (Cert.Gcn.head (V c main_v85) (V c main_v88) (V c main_arg6) (V c main_v89)) := by
  show (cfg4.win 4).cut (grid4.coords t) ((dat4 V c).after 4 t) = _
  rw [after4_4]
  unfold out4_4
  rw [View.canon_unit_zero hz]
  simp only [View.ld_unit_zero (S := S5000x96) hz, View.ld_unit_zero (S := S1x96) hz, View.ld_unit_zero (S := S96x4) hz, View.ld_unit_zero (S := S1x4) hz]
  obtain ⟨e00, e01, e10, e11, e20, e21, e30, e31, e40, e41⟩ := idx t
  have ht : t.val < 10 := lt_of_lt_of_eq t.isLt N_4
  funext j
  have hj0 : (j 0).val < 5000 := (j 0).isLt
  have hj1 : (j 1).val < 4 := (j 1).isLt
  show k4_pay1 (F := Ideal) (iblk4 V c 0 t) (iblk4 V c 1 t) (iblk4 V c 2 t) (iblk4 V c 3 t) j
    = Cert.Gcn.head (V c main_v85) (V c main_v88) (V c main_arg6) (V c main_v89) (((cfg4.win 4).blk t).view.emb j)
  have ej : j = ix2 (⟨(j 0).val, hj0⟩ : Fin 5000) (⟨(j 1).val, hj1⟩ : Fin 4) := funext fun a => Fin.ext (by
    match a with
    | ⟨0, _⟩ => rfl
    | ⟨1, _⟩ => rfl)
  have hP : t.val * 5000 + (j 0).val < 50000 := by omega
  have eo : ((cfg4.win 4).blk t).view.emb j
      = ix2 (⟨t.val * 5000 + (j 0).val, hP⟩ : Fin 50000) (⟨(j 1).val, hj1⟩ : Fin 4) := funext fun a => Fin.ext (by
    match a with
    | ⟨0, _⟩ => show win4_4.index t (0 : Fin 2) * 5000 + 1 * (j 0).val = t.val * 5000 + (j 0).val; omega
    | ⟨1, _⟩ => show win4_4.index t (1 : Fin 2) * 4 + 1 * (j 1).val = (j 1).val; omega)
  rw [eo]
  refine (congrArg (k4_pay1 (F := Ideal) (iblk4 V c 0 t) (iblk4 V c 1 t) (iblk4 V c 2 t) (iblk4 V c 3 t)) ej).trans ?_
  refine (Cert.KernelIdeal.Tiles.tile4_apply (iblk4 V c 0 t) (iblk4 V c 1 t) (iblk4 V c 2 t) (iblk4 V c 3 t) _ _).trans ?_
  refine Eq.trans ?_ (Cert.Gcn.head_apply (V c main_v85) (V c main_v88) (V c main_arg6) (V c main_v89) _ _).symm
  rw [read3 V c t 0 _]
  refine congrArg (· + _) (Finset.sum_congr rfl fun k _ => ?_)
  rw [read0 V c t ⟨(j 0).val, hj0⟩ k hP, read1 V c t 0 k, read2 V c t k _]

/-- An index of the result array is in point `t`'s block iff its row is one of the block's 5000. -/
theorem mem_blk (t : Fin cfg4.N) (i : S50000x4.Idx) :
    i ∈ ((cfg4.win 4).blk t).view.set ↔ ∀ a : Fin 2, win4_4.index t a * S5000x4.size a ≤ (i a).val ∧ (i a).val < win4_4.index t a * S5000x4.size a + S5000x4.size a := by
  show i ∈ ((View.whole main_v90).slice (win4_4.rect t)).set ↔ _
  rw [View.set_slice_whole, Rect.mem_set_unit]
  exact Iff.rfl

/-- Every row of the result lies in the block of the point `row / 5000`. -/
theorem cover (i : S50000x4.Idx) : ∃ t : Fin cfg4.N, (cfg4.win 4).flush t = true ∧ i ∈ ((cfg4.win 4).blk t).view.set := by
  have hi0 : (i 0).val < 50000 := (i 0).isLt
  have hi1 : (i 1).val < 4 := (i 1).isLt
  let t : Fin cfg4.N := ⟨(i 0).val / 5000, lt_of_lt_of_eq (by omega : (i 0).val / 5000 < 10) N_4.symm⟩
  obtain ⟨e00, e01, e10, e11, e20, e21, e30, e31, e40, e41⟩ := idx t
  have tv : t.val = (i 0).val / 5000 := rfl
  refine ⟨t, flush4_4 t, ?_⟩
  rw [mem_blk]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 4 ≤ (i 1).val ∧ (i 1).val < win4_4.index t (1 : Fin 2) * 4 + 4; omega

/-- THE ARRAY after the region: `head` of the arrays the region found. -/
theorem final (c : Dev nD) :
    (dat4 V c).arrAt 4 cfg4.N = Cert.Gcn.head (V c main_v85) (V c main_v88) (V c main_arg6) (V c main_v89) :=
  (dat4 V c).arrAt_eq_of_cover 4 _ (fun t _ => flushed V c t) cover

end Cert.KernelIdeal.Region4

end
-- ==== Proof.Stages.lean ====
/-
  The program's buffers, boundary by boundary, as the specification's layers.

  A region's output array is its layer of the arrays the region found (the five whole-array forms); a stretch of host
  operations between two regions gathers, weighs and sums the messages — the specification's `msgs` — and cuts the next
  layer's weights and bias out of the parameter stacks. Composing them from the first region to the last gives the
  result's buffer as the specification's `network` of the argument arrays.
-/
import proofs.«174598_j50680614093670_1_alg».proof.Proof.Gen.KernelIdeal.Frame
import proofs.«174598_j50680614093670_1_alg».proof.Proof.Spec
import proofs.«174598_j50680614093670_1_alg».proof.Proof.Carry
import proofs.«174598_j50680614093670_1_alg».proof.Proof.Entry
import proofs.«174598_j50680614093670_1_alg».proof.Proof.Region0
import proofs.«174598_j50680614093670_1_alg».proof.Proof.Region1
import proofs.«174598_j50680614093670_1_alg».proof.Proof.Region2
import proofs.«174598_j50680614093670_1_alg».proof.Proof.Region3
import proofs.«174598_j50680614093670_1_alg».proof.Proof.Region4
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg) (c : Dev nD)

open Cert.KernelIdeal.Carry Cert.KernelIdeal.Entry

theorem mem4 : main_arg4 ∈ followed := by simp [followed]
theorem mem5 : main_arg5 ∈ followed := by simp [followed]
theorem mem6 : main_arg6 ∈ followed := by simp [followed]
theorem mem7 : main_arg7 ∈ followed := by simp [followed]
theorem memS : main_v3 ∈ followed := by simp [followed]
theorem memD : main_v6 ∈ followed := by simp [followed]
theorem memN : main_v29 ∈ followed := by simp [followed]

/-! ## Region 0: the input projection -/

theorem h0_eq : W4 m ρ c (Proc.devRef .tc main_v31)
    = Cert.Gcn.dense (m ((c : Thread nD τ).loc main_arg0)) (m ((c : Thread nD τ).loc main_arg2)) (Cert.Gcn.row (m ((c : Thread nD τ).loc main_arg3))) := by
  refine (W4_arr m ρ c 3).trans ((Region0.final (V3 m ρ) c).trans ?_)
  have e0 : V3 m ρ c main_arg0 = m ((c : Thread nD τ).loc main_arg0) := arg0_eq m ρ c
  have e2 : V3 m ρ c main_arg2 = m ((c : Thread nD τ).loc main_arg2) := arg2_eq m ρ c
  have e3 : V3 m ρ c main_v30 = Cert.Gcn.row (m ((c : Thread nD τ).loc main_arg3)) :=
    (bias_eq m ρ c).trans (Cert.RowForms.cast_eq_lead _ _ _)
  rw [e0, e2, e3]

/-! ## Region 1: layer 0's projection -/

theorem w0_eq : W5 m ρ c (Proc.devRef .tc main_v33) = Cert.Gcn.w0 (m ((c : Thread nD τ).loc main_arg4)) := by
  have e : W5 m ρ c (Proc.devRef .tc main_v33)
      = shapeCast S96x96 (extractStridedSlice S1x96x96 ![0, 0, 0] (W4 m ρ c (Proc.devRef .tc main_arg4)) slices_S3x96x96_S1x96x96_0_0_0) shapeCasts_S1x96x96_S96x96 := by
    dsimp only [W5, hostOps1]; after_results_simp <;> try rfl
  rw [e, at4 m ρ c _ mem4, arg4_eq]; rfl

theorem h0_kept : W5 m ρ c (Proc.devRef .tc main_v31) = W4 m ρ c (Proc.devRef .tc main_v31) := by
  host_keeps hostOps1

theorem hw0_eq : W6 m ρ c (Proc.devRef .tc main_v34)
    = Cert.Gcn.hw0 (m ((c : Thread nD τ).loc main_arg0)) (m ((c : Thread nD τ).loc main_arg2)) (m ((c : Thread nD τ).loc main_arg3)) (m ((c : Thread nD τ).loc main_arg4)) := by
  refine (W6_arr m ρ c 2).trans ((Region1.final (V5 m ρ) c).trans ?_)
  have e0 : V5 m ρ c main_v31 = Cert.Gcn.dense (m ((c : Thread nD τ).loc main_arg0)) (m ((c : Thread nD τ).loc main_arg2)) (Cert.Gcn.row (m ((c : Thread nD τ).loc main_arg3))) :=
    (h0_kept m ρ c).trans (h0_eq m ρ c)
  have e1 : V5 m ρ c main_v33 = Cert.Gcn.w0 (m ((c : Thread nD τ).loc main_arg4)) := w0_eq m ρ c
  rw [e0, e1]; rfl

/-! ## Region 2: round one's messages, layer 0's bias and rectifier, layer 1's projection -/

theorem msgs0_eq : W7 m ρ c (Proc.devRef .tc main_v47)
    = Cert.Gcn.msgs (m ((c : Thread nD τ).loc main_arg1)) (Cert.Gcn.hw0 (m ((c : Thread nD τ).loc main_arg0)) (m ((c : Thread nD τ).loc main_arg2)) (m ((c : Thread nD τ).loc main_arg3)) (m ((c : Thread nD τ).loc main_arg4))) := by
  have e : W7 m ρ c (Proc.devRef .tc main_v47)
      = Cert.Gcn.agg (W6 m ρ c (Proc.devRef .tc main_v3)) (W6 m ρ c (Proc.devRef .tc main_v6)) (W6 m ρ c (Proc.devRef .tc main_v29))
          (W6 m ρ c (Proc.devRef .tc main_v34)) := by
    dsimp only [W7, hostOps2]; after_results_simp <;> try rfl
  rw [e, at6 m ρ c _ memS, at6 m ρ c _ memD, at6 m ρ c _ memN, src_eq, dst_eq, norm_eq, hw0_eq]; rfl

theorem b0_eq : W7 m ρ c (Proc.devRef .tc main_v52) = Cert.Gcn.row (Cert.Gcn.v0 (m ((c : Thread nD τ).loc main_arg5))) := by
  have e : W7 m ρ c (Proc.devRef .tc main_v52)
      = shapeCast S1x96 (shapeCast S96 (extractStridedSlice S1x96 ![0, 0] (W6 m ρ c (Proc.devRef .tc main_arg5)) slices_S3x96_S1x96_0_0) shapeCasts_S1x96_S96) shapeCasts_S96_S1x96 := by
    dsimp only [W7, hostOps2]; after_results_simp <;> try rfl
  rw [e, at6 m ρ c _ mem5, arg5_eq]
  exact Cert.RowForms.cast_eq_lead _ _ _

theorem w1_eq : W7 m ρ c (Proc.devRef .tc main_v49) = Cert.Gcn.w1 (m ((c : Thread nD τ).loc main_arg4)) := by
  have e : W7 m ρ c (Proc.devRef .tc main_v49)
      = shapeCast S96x96 (extractStridedSlice S1x96x96 ![1, 0, 0] (W6 m ρ c (Proc.devRef .tc main_arg4)) slices_S3x96x96_S1x96x96_1_0_0) shapeCasts_S1x96x96_S96x96 := by
    dsimp only [W7, hostOps2]; after_results_simp <;> try rfl
  rw [e, at6 m ρ c _ mem4, arg4_eq]; rfl

theorem hw1_eq : W8 m ρ c (Proc.devRef .tc main_v53)
    = Cert.Gcn.hw1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 3).trans ((Region2.final (V7 m ρ) c).trans ?_)
  have e0 : V7 m ρ c main_v47 = _ := msgs0_eq m ρ c
  have e1 : V7 m ρ c main_v52 = _ := b0_eq m ρ c
  have e2 : V7 m ρ c main_v49 = _ := w1_eq m ρ c
  rw [e0, e1, e2]; rfl

/-! ## Region 3: round two's messages, layer 1's bias and rectifier, layer 2's projection -/

theorem msgs1_eq : W9 m ρ c (Proc.devRef .tc main_v66)
    = Cert.Gcn.msgs (m ((c : Thread nD τ).loc main_arg1))
        (Cert.Gcn.hw1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have e : W9 m ρ c (Proc.devRef .tc main_v66)
      = Cert.Gcn.agg (W8 m ρ c (Proc.devRef .tc main_v3)) (W8 m ρ c (Proc.devRef .tc main_v6)) (W8 m ρ c (Proc.devRef .tc main_v29))
          (W8 m ρ c (Proc.devRef .tc main_v53)) := by
    dsimp only [W9, hostOps3]; after_results_simp <;> try rfl
  rw [e, at8 m ρ c _ memS, at8 m ρ c _ memD, at8 m ρ c _ memN, src_eq, dst_eq, norm_eq, hw1_eq]; rfl

theorem b1_eq : W9 m ρ c (Proc.devRef .tc main_v71) = Cert.Gcn.row (Cert.Gcn.v1 (m ((c : Thread nD τ).loc main_arg5))) := by
  have e : W9 m ρ c (Proc.devRef .tc main_v71)
      = shapeCast S1x96 (shapeCast S96 (extractStridedSlice S1x96 ![1, 0] (W8 m ρ c (Proc.devRef .tc main_arg5)) slices_S3x96_S1x96_1_0) shapeCasts_S1x96_S96) shapeCasts_S96_S1x96 := by
    dsimp only [W9, hostOps3]; after_results_simp <;> try rfl
  rw [e, at8 m ρ c _ mem5, arg5_eq]
  exact Cert.RowForms.cast_eq_lead _ _ _

theorem w2_eq : W9 m ρ c (Proc.devRef .tc main_v68) = Cert.Gcn.w2 (m ((c : Thread nD τ).loc main_arg4)) := by
  have e : W9 m ρ c (Proc.devRef .tc main_v68)
      = shapeCast S96x96 (extractStridedSlice S1x96x96 ![2, 0, 0] (W8 m ρ c (Proc.devRef .tc main_arg4)) slices_S3x96x96_S1x96x96_2_0_0) shapeCasts_S1x96x96_S96x96 := by
    dsimp only [W9, hostOps3]; after_results_simp <;> try rfl
  rw [e, at8 m ρ c _ mem4, arg4_eq]; rfl

theorem hw2_eq : W10 m ρ c (Proc.devRef .tc main_v72)
    = Cert.Gcn.hw2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W10_arr m ρ c 3).trans ((Region3.final (V9 m ρ) c).trans ?_)
  have e0 : V9 m ρ c main_v66 = _ := msgs1_eq m ρ c
  have e1 : V9 m ρ c main_v71 = _ := b1_eq m ρ c
  have e2 : V9 m ρ c main_v68 = _ := w2_eq m ρ c
  rw [e0, e1, e2]; rfl

/-! ## Region 4: round three's messages, layer 2's bias and rectifier, the output projection -/

theorem msgs2_eq : W11 m ρ c (Proc.devRef .tc main_v85)
    = Cert.Gcn.msgs (m ((c : Thread nD τ).loc main_arg1))
        (Cert.Gcn.hw2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have e : W11 m ρ c (Proc.devRef .tc main_v85)
      = Cert.Gcn.agg (W10 m ρ c (Proc.devRef .tc main_v3)) (W10 m ρ c (Proc.devRef .tc main_v6)) (W10 m ρ c (Proc.devRef .tc main_v29))
          (W10 m ρ c (Proc.devRef .tc main_v72)) := by
    dsimp only [W11, hostOps4]; after_results_simp <;> try rfl
  rw [e, at10 m ρ c _ memS, at10 m ρ c _ memD, at10 m ρ c _ memN, src_eq, dst_eq, norm_eq, hw2_eq]; rfl

theorem b2_eq : W11 m ρ c (Proc.devRef .tc main_v88) = Cert.Gcn.row (Cert.Gcn.v2 (m ((c : Thread nD τ).loc main_arg5))) := by
  have e : W11 m ρ c (Proc.devRef .tc main_v88)
      = shapeCast S1x96 (shapeCast S96 (extractStridedSlice S1x96 ![2, 0] (W10 m ρ c (Proc.devRef .tc main_arg5)) slices_S3x96_S1x96_2_0) shapeCasts_S1x96_S96) shapeCasts_S96_S1x96 := by
    dsimp only [W11, hostOps4]; after_results_simp <;> try rfl
  rw [e, at10 m ρ c _ mem5, arg5_eq]
  exact Cert.RowForms.cast_eq_lead _ _ _

theorem bout_eq : W11 m ρ c (Proc.devRef .tc main_v89) = Cert.Gcn.row4 (m ((c : Thread nD τ).loc main_arg7)) := by
  have e : W11 m ρ c (Proc.devRef .tc main_v89) = shapeCast S1x4 (W10 m ρ c (Proc.devRef .tc main_arg7)) shapeCasts_S4_S1x4 := by
    dsimp only [W11, hostOps4]; after_results_simp <;> try rfl
  rw [e, at10 m ρ c _ mem7, arg7_eq]
  exact Cert.RowForms.cast_eq_lead _ _ _

theorem wout_eq : W11 m ρ c (Proc.devRef .tc main_arg6) = m ((c : Thread nD τ).loc main_arg6) :=
  (at11 m ρ c _ mem6).trans (arg6_eq m ρ c)

/-- THE RESULT: the last region's output array is the network of the argument arrays. -/
theorem result_eq : W12 m ρ c (Proc.devRef .tc main_v90)
    = Cert.Gcn.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) := by
  refine (W12_arr m ρ c 4).trans ((Region4.final (V11 m ρ) c).trans ?_)
  have e0 : V11 m ρ c main_v85 = _ := msgs2_eq m ρ c
  have e1 : V11 m ρ c main_v88 = _ := b2_eq m ρ c
  have e2 : V11 m ρ c main_arg6 = _ := wout_eq m ρ c
  have e3 : V11 m ρ c main_v89 = _ := bout_eq m ρ c
  rw [e0, e1, e2, e3]; rfl

end Cert.KernelIdeal.Stages

end
-- ==== Proof.RefValue.lean ====
/-
  The reference computes the network.

  The reference program is one line of host operations; its run ends with the result at the operations' composed term
  of the argument arrays. That term, written out, is the specification's `network`: the same operations in the same
  order, grouped into layers.
-/
import proofs.«174598_j50680614093670_1_alg».proof.Proof.RefRun
import proofs.«174598_j50680614093670_1_alg».proof.Proof.Spec

set_option maxRecDepth 16384

noncomputable section

namespace Cert.ReferenceIdeal.RefValue

open Cert.ReferenceIdeal Idealize.ShloMosaic Idealize.ShloMosaic.TcCoe Idealize.SL.Sem

theorem result_eq (m : (ℓ : Loc nD τ sig) → Buf (Elt Ideal) ℓ) (c : Dev nD) :
    Cert.ReferenceIdeal.ValueP.res_main_v103 (F := Ideal) m c
      = Cert.Gcn.network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v103
  rfl

end Cert.ReferenceIdeal.RefValue

end
-- ==== Proof.lean ====
/-
  The certificate of a three-layer graph convolution network computed by five tiled regions against its plain
  specification.

  Both programs compute, from the edge list, the edges (with one self-loop per node) and their symmetric weights
  `deg^(-1/2)(src)·deg^(-1/2)(dst)` by the same host operations. The specification then applies, on whole arrays, the input
  projection `x·W_in + b_in` and three times "project by the layer's weights, gather the rows at the sources, weigh, sum into
  the targets, add the bias, rectify", and last the output projection. The tiled program computes each dense step
  block of 5000 rows by block, fusing a layer's bias and rectifier with the NEXT projection; the gathers and sums stay
  host operations on whole arrays. At the extended reals a block's product is the plain sum of products of the block's
  rows, the ten blocks tile the 50000 rows, and a change of float format is the identity: every region's output array
  is its layer of the arrays it found, and the two results are the same function `network` of the arguments — no law of
  arithmetic is needed beyond reading both sides at an entry, and the precondition is not used.
-/
import proofs.«174598_j50680614093670_1_alg».proof.Defs
import proofs.«174598_j50680614093670_1_alg».proof.Proof.Gen.Kernel
import proofs.«174598_j50680614093670_1_alg».proof.Proof.Gen.Kernel.Frame
import proofs.«174598_j50680614093670_1_alg».proof.Proof.Gen.KernelIdeal
import proofs.«174598_j50680614093670_1_alg».proof.Proof.Gen.KernelIdeal.Frame
import proofs.«174598_j50680614093670_1_alg».proof.Proof.Gen.ReferenceIdeal
import proofs.«174598_j50680614093670_1_alg».proof.Proof.Gen.Pre_finite_inputs
import proofs.«174598_j50680614093670_1_alg».proof.Proof.KernelRun
import proofs.«174598_j50680614093670_1_alg».proof.Proof.Stages
import proofs.«174598_j50680614093670_1_alg».proof.Proof.RefRun
import proofs.«174598_j50680614093670_1_alg».proof.Proof.RefValue
import Idealize.ShloMosaic.Adequacy
import Idealize.ShloMosaic.Init

noncomputable section

namespace Cert.Proof

open Idealize.ShloMosaic Idealize.ShloMosaic.TcCoe Idealize.SL.Sem

namespace Claims

variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end with the result at `network` of arguments that agree. -/
theorem algebraic : Cert.algebraic_KernelIdeal_ReferenceIdeal := by
  intro m ρ m' ρ' _ hagree
  refine ⟨fun c => Cert.Gcn.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Stages.result_eq m ρ c), (h c).2⟩)
      (Cert.KernelIdeal.Fold.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5, a6, a7⟩ := hagree c
    rw [Cert.ReferenceIdeal.RefValue.result_eq, a0, a1, a2, a3, a4, a5, a6, a7]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
